-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S8 .f32) (main_v33 : IVec S_ 1) : IVec S_ 1 :=
  let main_v34 : FVec F S8 .f32 := Host.absf main_arg8
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x8 .f32) (main_arg8 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x8 .f32 := Host.absf main_arg7
  let main_cst_10 : FVec F S_ .f32 := constant S_ .f32 0x7F800000#32
  let main_v30 : FVec F S64x8 .f32 := broadcastInDim S64x8 ![] bcast_S_S64x8 main_cst_10
  let main_v31 : IVec S64x8 1 := cmpf .olt main_v29 main_v30
  let main_c_11 : IVec S_ 1 := constantI S_ 1 1#1
  let main_v32 : IVec S_ 1 := (fun x v => Host.reduce IntOp.andi x v reducesTo_S64x8_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000 .f32) (main_arg3 : FVec F S64x64 .f32) (main_arg4 : FVec F S64 .f32) (main_arg5 : FVec F S64x64 .f32) (main_arg6 : FVec F S64 .f32) (main_arg7 : FVec F S64x8 .f32) (main_arg8 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S10000x64 : Shape := ⟨2, ![10000, 64]⟩
abbrev S850000x64 : Shape := ⟨2, ![850000, 64]⟩
abbrev S1x64 : Shape := ⟨2, ![1, 64]⟩
abbrev S1x8 : Shape := ⟨2, ![1, 8]⟩
abbrev S50000x8 : Shape := ⟨2, ![50000, 8]⟩
abbrev S10000x8 : Shape := ⟨2, ![10000, 8]⟩
abbrev S10000 : Shape := ⟨1, ![10000]⟩
abbrev S10000x1 : Shape := ⟨2, ![10000, 1]⟩

abbrev nBuf : Space → Nat
  | .hbm => 96
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x64, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x64, .f32⟩
  | .hbm, ⟨68, _⟩ => ⟨S850000x1, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S50000x64, .f32⟩
  | .hbm, ⟨73, _⟩ => ⟨S850000x1, .i32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S_, .i32⟩
  | .hbm, ⟨78, _⟩ => ⟨S850000, .i32⟩
  | .hbm, ⟨79, _⟩ => ⟨S850000, .i1⟩
  | .hbm, ⟨80, _⟩ => ⟨S_, .i32⟩
  | .hbm, ⟨81, _⟩ => ⟨S850000, .i32⟩
  | .hbm, ⟨82, _⟩ => ⟨S850000, .i32⟩
  | .hbm, ⟨83, _⟩ => ⟨S850000, .i32⟩
  | .hbm, ⟨84, _⟩ => ⟨S850000x1, .i32⟩
  | .hbm, ⟨85, _⟩ => ⟨S850000x64, .f32⟩
  | .hbm, ⟨86, _⟩ => ⟨S850000x1, .f32⟩
  | .hbm, ⟨87, _⟩ => ⟨S850000x64, .f32⟩
  | .hbm, ⟨88, _⟩ => ⟨S850000x64, .f32⟩
  | .hbm, ⟨89, _⟩ => ⟨S_, .f32⟩
  | .hbm, ⟨90, _⟩ => ⟨S50000x64, .f32⟩
  | .hbm, ⟨91, _⟩ => ⟨S850000x1, .i32⟩
  | .hbm, ⟨92, _⟩ => ⟨S50000x64, .f32⟩
  | .hbm, ⟨93, _⟩ => ⟨S1x64, .f32⟩
  | .hbm, ⟨94, _⟩ => ⟨S1x8, .f32⟩
  | .hbm, ⟨95, _⟩ => ⟨S50000x8, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x8, .f32⟩
  | .local _ .vmem, ⟨15, _⟩ => ⟨S1x8, .f32⟩
  | .local _ .vmem, ⟨16, _⟩ => ⟨S10000x8, .f32⟩
  | .local _ .vmem, ⟨17, _⟩ => ⟨S10000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_c_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_13 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S8_S1x8 : S8.ShapeCasts S1x8
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  reduces_S10000x8_S10000 : S10000x8.Reduces [1] S10000
  shapeCasts_S10000_S10000x1 : S10000.ShapeCasts S10000x1
  broadcasts_S10000x1_S10000x8 : S10000x1.Broadcasts S10000x8
  inb_S10000x8_S10000x8_0_0 : ∀ a, (![0, 0] : Fin 2 → Nat) a + S10000x8.size a ≤ S10000x8.size a
  h_S10000x8 : 0 < S10000x8.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x64_S64x64_S10000x64_1_0_0_1_n_n_wf : DotDims.WF S10000x64 S64x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x8_S10000x8_1_0_0_1_n_n_wf : DotDims.WF S10000x64 S64x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x8.size a ≤ S64x8.size a
  hwx2_2 : ∀ i : grid2.Coords, EltTy.bits .f32 = 32 ∨ (Rect.block (s := S64x8) S64x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x8.size a ≤ S1x8.size a
  hwx2_3 : ∀ i : grid2.Coords, EltTy.bits .f32 = 32 ∨ (Rect.block (s := S1x8) S1x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x8.size a ≤ S50000x8.size a
  hwx2_4 : ∀ i : grid2.Coords, EltTy.bits .f32 = 32 ∨ (Rect.block (s := S50000x8) S10000x8.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x8_S10000x8_1_0_0_1_n_n : DotDims S10000x64 S64x8 S10000x8 where
  lhsContracting := [1]
  rhsContracting := [0]
  lhsNonContracting := [0]
  rhsNonContracting := [1]
  lhsBatch := []
  rhsBatch := []
  wf := dot_S10000x64_S64x8_S10000x8_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S10000x8.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x8 : Shape := ⟨2, ![50000, 8]⟩
abbrev S1x8 : Shape := ⟨2, ![1, 8]⟩
abbrev S50000x1 : Shape := ⟨2, ![50000, 1]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x64, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x64, .f32⟩
  | .hbm, ⟨68, _⟩ => ⟨S850000x1, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S50000x64, .f32⟩
  | .hbm, ⟨73, _⟩ => ⟨S850000x1, .i32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x64, .f32⟩
  | .hbm, ⟨91, _⟩ => ⟨S850000x1, .f32⟩
  | .hbm, ⟨92, _⟩ => ⟨S850000x64, .f32⟩
  | .hbm, ⟨93, _⟩ => ⟨S850000x64, .f32⟩
  | .hbm, ⟨94, _⟩ => ⟨S_, .f32⟩
  | .hbm, ⟨95, _⟩ => ⟨S50000x64, .f32⟩
  | .hbm, ⟨96, _⟩ => ⟨S850000x1, .i32⟩
  | .hbm, ⟨97, _⟩ => ⟨S50000x64, .f32⟩
  | .hbm, ⟨98, _⟩ => ⟨S1x64, .f32⟩
  | .hbm, ⟨99, _⟩ => ⟨S50000x64, .f32⟩
  | .hbm, ⟨100, _⟩ => ⟨S50000x64, .f32⟩
  | .hbm, ⟨101, _⟩ => ⟨S_, .f32⟩
  | .hbm, ⟨102, _⟩ => ⟨S50000x64, .f32⟩
  | .hbm, ⟨103, _⟩ => ⟨S50000x64, .f32⟩
  | .hbm, ⟨104, _⟩ => ⟨S50000x8, .f32⟩
  | .hbm, ⟨105, _⟩ => ⟨S1x8, .f32⟩
  | .hbm, ⟨106, _⟩ => ⟨S50000x8, .f32⟩
  | .hbm, ⟨107, _⟩ => ⟨S50000x8, .f32⟩
  | .hbm, ⟨108, _⟩ => ⟨S_, .f32⟩
  | .hbm, ⟨109, _⟩ => ⟨S50000, .f32⟩
  | .hbm, ⟨110, _⟩ => ⟨S_, .f32⟩
  | .hbm, ⟨111, _⟩ => ⟨S50000, .f32⟩
  | .hbm, ⟨112, _⟩ => ⟨S50000, .f32⟩
  | .hbm, ⟨113, _⟩ => ⟨S50000x1, .f32⟩
  | .hbm, ⟨114, _⟩ => ⟨S50000x8, .f32⟩
  | .hbm, ⟨115, _⟩ => ⟨S50000x8, .f32⟩
  | .hbm, ⟨116, _⟩ => ⟨S50000x8, .f32⟩
  | .hbm, ⟨117, _⟩ => ⟨S_, .f32⟩
  | .hbm, ⟨118, _⟩ => ⟨S50000, .f32⟩
  | .hbm, ⟨119, _⟩ => ⟨S50000x1, .f32⟩
  | .hbm, ⟨120, _⟩ => ⟨S50000x8, .f32⟩
  | .hbm, ⟨121, _⟩ => ⟨S50000x8, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call2_cst : Ref sig .tc := ⟨.hbm, 78, rfl⟩
abbrev main_call2_v0 : Ref sig .tc := ⟨.hbm, 79, rfl⟩
abbrev main_v52 : Ref sig .tc := ⟨.hbm, 80, rfl⟩
abbrev main_v53 : Ref sig .tc := ⟨.hbm, 81, rfl⟩
abbrev main_c_11 : Ref sig .tc := ⟨.hbm, 82, rfl⟩
abbrev main_v54 : Ref sig .tc := ⟨.hbm, 83, rfl⟩
abbrev main_v55 : Ref sig .tc := ⟨.hbm, 84, rfl⟩
abbrev main_c_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_call3_cst : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_cst_15 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_16 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  reducesTo_S50000x8_S50000_d1 : S50000x8.ReducesTo [1] S50000
  h_S_ : 0 < S_.numel
  bcast_S50000_S50000x1_0 : S50000.BroadcastsInDim S50000x1 (![0] : Fin 1 → Fin S50000x1.rank)
  bcast_S50000x1_S50000x8_0_1 : S50000x1.BroadcastsInDim S50000x8 (![0, 1] : Fin 2 → Fin S50000x8.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x8_S50000x8_1_0_0_1_n_n_wf : DotDims.WF S50000x64 S64x8 S50000x8 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.KernelRun.lean ====
/-
  The idealized kernel's run with its result named.

  The program is three kernel regions among stretches of host operations. Its run leaves every unscoped buffer of a
  core at the contents the generated fold `W10` gives it: the launch memory pushed through each host stretch and each
  region's write-backs in program order. Read at the result buffer and at the nine arguments, that is the post this
  module states: the result at `W10`'s value, each argument as launched.
-/
import proofs.«105237_j74629351735532_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the result buffer holds what the
    fold of host stretches and region write-backs leaves there, and every argument holds what it was launched with. -/
theorem run : θ_run defs (onTc (τ := τ) (main (F := F))) ⟨m, fun _ => 0, ρ⟩ (fun r => ∀ c : Dev nD,
      r.2.mem ((c.tc : Thread nD τ).loc main_v66) = W10 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v66 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Named

end
-- ==== Proof.RowForms.lean ====
/-
  The network's row-wise arithmetic, on the extended reals.

  Both programs treat a node's feature row independently of every other row once the neighbourhood sums are taken:
  a row is sent through a weight matrix (`dotRow`), a bias is added and the rectifier applied (`reluRow`), and the last
  layer's eight scores are normalised by the shifted exponential (`softmaxRow`). The array functions below apply these
  to every row of an array; they are stated for any number of rows, so that one statement serves a block of rows and
  the whole array alike.
-/
import Idealize.ShloMosaic.PureOps.Ideal.Laws
import Idealize.ShloMosaic.Lib.ValueIdx

noncomputable section

namespace Cert.RowForms

open Idealize.ShloMosaic Idealize.ShloMosaic.ValueIdx
open scoped BigOperators

/-- The f32 word of zero, as an extended real. -/
abbrev zeroWord : EReal := Ideal.ofBits .f32 0x00000000#32
/-- The f32 word of minus infinity, as an extended real. -/
abbrev ninfWord : EReal := Ideal.ofBits .f32 0xFF800000#32

/-- Row `r` of an `[N, K]` array. -/
abbrev rowOf {N K : ℕ} (A : (⟨2, ![N, K]⟩ : Shape).Idx → EReal) (r : Fin N) : Fin K → EReal := fun k => A (ix2 r k)

/-- A row of `K` entries against a `[K, O]` matrix: entry `o` is the sum over `k` of `h k · W (k, o)`. -/
def dotRow {K O : ℕ} (h : Fin K → EReal) (W : (⟨2, ![K, O]⟩ : Shape).Idx → EReal) (o : Fin O) : EReal :=
  ∑ k : Fin K, h k * W (ix2 k o)

/-- A bias added to a row, then the rectifier: the larger of the sum and zero. -/
def reluRow {K : ℕ} (a b : Fin K → EReal) : Fin K → EReal := fun k => max (a k + b k) zeroWord

/-- The shift a row's softmax subtracts: the largest score, the fold of `max` from minus infinity (taken once more
    against minus infinity, as both programs do). -/
def rowTop {C : ℕ} (s : Fin C → EReal) : EReal := max ninfWord ((Finset.univ : Finset (Fin C)).fold max ninfWord s)

/-- The softmax of a row of scores: each shifted exponential over the sum of them all. -/
def softmaxRow {C : ℕ} (s : Fin C → EReal) (c : Fin C) : EReal :=
  Ideal.div (Ideal.exp (s c - rowTop s)) (∑ k : Fin C, Ideal.exp (s k - rowTop s))

/-- Every row of `X` through `W`. -/
def project {N K O : ℕ} (X : (⟨2, ![N, K]⟩ : Shape).Idx → EReal) (W : (⟨2, ![K, O]⟩ : Shape).Idx → EReal) :
    (⟨2, ![N, O]⟩ : Shape).Idx → EReal := fun i => dotRow (rowOf X (i 0)) W (i 1)

/-- Every row of `A` biased by `b`, rectified, then through `W`. -/
def layer {N K O : ℕ} (A : (⟨2, ![N, K]⟩ : Shape).Idx → EReal) (b : Fin K → EReal) (W : (⟨2, ![K, O]⟩ : Shape).Idx → EReal) :
    (⟨2, ![N, O]⟩ : Shape).Idx → EReal := fun i => dotRow (reluRow (rowOf A (i 0)) b) W (i 1)

/-- The scores of a row: the row biased by `b`, rectified, through `W`, plus the bias `bm`. -/
def scoreRow {K C : ℕ} (a b : Fin K → EReal) (W : (⟨2, ![K, C]⟩ : Shape).Idx → EReal) (bm : Fin C → EReal) : Fin C → EReal :=
  fun c => dotRow (reluRow a b) W c + bm c

/-- Every row of `A` to its class probabilities. -/
def classify {N K C : ℕ} (A : (⟨2, ![N, K]⟩ : Shape).Idx → EReal) (b : Fin K → EReal) (W : (⟨2, ![K, C]⟩ : Shape).Idx → EReal)
    (bm : Fin C → EReal) : (⟨2, ![N, C]⟩ : Shape).Idx → EReal :=
  fun i => softmaxRow (scoreRow (rowOf A (i 0)) b W bm) (i 1)

theorem project_ix2 {N K O : ℕ} (X : (⟨2, ![N, K]⟩ : Shape).Idx → EReal) (W : (⟨2, ![K, O]⟩ : Shape).Idx → EReal) (r : Fin N) (o : Fin O) :
    project X W (ix2 r o) = dotRow (rowOf X r) W o := rfl
theorem layer_ix2 {N K O : ℕ} (A : (⟨2, ![N, K]⟩ : Shape).Idx → EReal) (b : Fin K → EReal) (W : (⟨2, ![K, O]⟩ : Shape).Idx → EReal)
    (r : Fin N) (o : Fin O) : layer A b W (ix2 r o) = dotRow (reluRow (rowOf A r) b) W o := rfl
theorem classify_ix2 {N K C : ℕ} (A : (⟨2, ![N, K]⟩ : Shape).Idx → EReal) (b : Fin K → EReal) (W : (⟨2, ![K, C]⟩ : Shape).Idx → EReal)
    (bm : Fin C → EReal) (r : Fin N) (c : Fin C) : classify A b W bm (ix2 r c) = softmaxRow (scoreRow (rowOf A r) b W bm) c := rfl

end Cert.RowForms

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Bodies.lean ====
/-
  The three kernel bodies, read at an entry of the block they store.

  Each body stores one value: a matrix product into a zero accumulator, in the second and third body of a block
  that was first biased and rectified, in the third followed by a bias and a softmax along the eight lanes. Read at
  entry `(p, c)` of the stored block, on the extended reals (where the roundings to bf16 are the identity), each is the
  row-wise arithmetic of `RowForms` applied to row `p` of the first input block and to the whole weight arrays.
-/
import proofs.«105237_j74629351735532_1_alg».proof.Proof.Gen.KernelIdeal.Skeleton
import proofs.«105237_j74629351735532_1_alg».proof.Proof.RowForms
import proofs.«105237_j74629351735532_1_alg».proof.Proof.LibPlainMatmul
import proofs.«105237_j74629351735532_1_alg».proof.Proof.LibColumn
import Idealize.ShloMosaic.Lib.ValueLayout
import Idealize.ShloMosaic.Lib.Pipeline.Value

noncomputable section

namespace Cert.KernelIdeal.Bodies

open Cert.KernelIdeal Cert.KernelIdeal.Gen Cert.RowForms
open Idealize.ShloMosaic Idealize.ShloMosaic.ValueIdx
open scoped BigOperators

/-! ## The two dots' operand indices, by coordinates -/

theorem d64_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem d64_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem d64_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem d64_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem d8_l0 (i : S10000x8.Idx) (q : dot_S10000x64_S64x8_S10000x8_1_0_0_1_n_n.contr.Idx) :
    (dot_S10000x64_S64x8_S10000x8_1_0_0_1_n_n.lhsIdx i q 0).val = (i 0).val := by
  unfold DotDims.lhsIdx
  rw [dif_neg (show ¬(0 : Fin S10000x64.rank) ∈ dot_S10000x64_S64x8_S10000x8_1_0_0_1_n_n.lhsBatch by decide), dif_pos (show (0 : Fin S10000x64.rank) ∈ dot_S10000x64_S64x8_S10000x8_1_0_0_1_n_n.lhsNonContracting by decide)]
  rfl
theorem d8_l1 (i : S10000x8.Idx) (q : dot_S10000x64_S64x8_S10000x8_1_0_0_1_n_n.contr.Idx) :
    (dot_S10000x64_S64x8_S10000x8_1_0_0_1_n_n.lhsIdx i q 1).val = (q ⟨0, by decide⟩).val :=
  dot_S10000x64_S64x8_S10000x8_1_0_0_1_n_n.lhsIdx_val_of_single rfl i q
theorem d8_r0 (i : S10000x8.Idx) (q : dot_S10000x64_S64x8_S10000x8_1_0_0_1_n_n.contr.Idx) :
    (dot_S10000x64_S64x8_S10000x8_1_0_0_1_n_n.rhsIdx i q 0).val = (q ⟨0, by decide⟩).val :=
  dot_S10000x64_S64x8_S10000x8_1_0_0_1_n_n.rhsIdx_val_of_single rfl i q
theorem d8_r1 (i : S10000x8.Idx) (q : dot_S10000x64_S64x8_S10000x8_1_0_0_1_n_n.contr.Idx) :
    (dot_S10000x64_S64x8_S10000x8_1_0_0_1_n_n.rhsIdx i q 1).val = (i 1).val := by
  unfold DotDims.rhsIdx
  rw [dif_neg (show ¬(1 : Fin S64x8.rank) ∈ dot_S10000x64_S64x8_S10000x8_1_0_0_1_n_n.rhsBatch by decide), dif_pos (show (1 : Fin S64x8.rank) ∈ dot_S10000x64_S64x8_S10000x8_1_0_0_1_n_n.rhsNonContracting by decide)]
  rfl

/-! ## The first body: a block of rows through the weight matrix -/

theorem pay0_apply (x0 : Vec Ideal S10000x64 .f32) (x1 : Vec Ideal S64x64 .f32) (p : Fin 10000) (c : Fin 64) :
    k0_pay1 (F := Ideal) x0 x1 (ix2 p c) = dotRow (rowOf x0 p) x1 c := by
  unfold k0_pay1
  exact Cert.LibPlainMatmul.matmul_zero_ix2 dot_S10000x64_S64x64_S10000x64_1_0_0_1_n_n none rfl rfl d64_l0 d64_l1 d64_r0 d64_r1 _ _ p c

/-! ## The rectified block -/

/-- The block with the bias row added to every row and the rectifier applied, at `(p, k)`. -/
theorem rectified_apply (x0 : Vec Ideal S10000x64 .f32) (x1 : Vec Ideal S1x64 .f32) (p : Fin 10000) (k : Fin 64) :
    maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits (F := Ideal) .f32 0x00000000#32)) (ix2 p k)
      = reluRow (rowOf x0 p) (fun k => x1 (ix2 (0 : Fin 1) k)) k := by
  show max ((shapeCast S10000x64 x0 shapeCasts_S10000x64_S10000x64) (ix2 p k)
      + (broadcastTo S10000x64 (shapeCast S1x64 x1 shapeCasts_S1x64_S1x64) broadcasts_S1x64_S10000x64) (ix2 p k)) _ = _
  rw [shapeCast_self, broadcastTo_1b_ab_apply, shapeCast_self]
  rfl

/-! ## The second body -/

theorem pay1_apply (x0 : Vec Ideal S10000x64 .f32) (x1 : Vec Ideal S1x64 .f32) (x2 : Vec Ideal S64x64 .f32) (p : Fin 10000) (c : Fin 64) :
    k1_pay1 (F := Ideal) x0 x1 x2 (ix2 p c) = dotRow (reluRow (rowOf x0 p) (fun k => x1 (ix2 (0 : Fin 1) k))) x2 c := by
  unfold k1_pay1
  refine (Cert.LibPlainMatmul.matmul_zero_ix2 dot_S10000x64_S64x64_S10000x64_1_0_0_1_n_n none rfl rfl d64_l0 d64_l1 d64_r0 d64_r1 _ _ p c).trans ?_
  unfold dotRow
  refine Finset.sum_congr rfl fun k _ => ?_
  refine congrArg (· * x2 (ix2 k c)) ?_
  exact rectified_apply x0 x1 p k

/-! ## The third body: scores, then the softmax along the lanes -/

/-- The score block: the rectified block through the `[64, 8]` matrix, plus the bias row on every row. -/
def scores (x0 : Vec Ideal S10000x64 .f32) (x1 : Vec Ideal S1x64 .f32) (x2 : Vec Ideal S64x8 .f32) (x3 : Vec Ideal S1x8 .f32) :
    FVec Ideal S10000x8 .f32 :=
  addf (matmul dot_S10000x64_S64x8_S10000x8_1_0_0_1_n_n none
      (truncf .bf16 (maximumf (addf (shapeCast S10000x64 x0 shapeCasts_S10000x64_S10000x64)
          (broadcastTo S10000x64 (shapeCast S1x64 x1 shapeCasts_S1x64_S1x64) broadcasts_S1x64_S10000x64))
        (broadcast S10000x64 (Scalar.ofBits (F := Ideal) .f32 0x00000000#32))) bitsLt_bf16_f32)
      (truncf .bf16 x2 bitsLt_bf16_f32) (constant S10000x8 .f32 0x00000000#32))
    (broadcastTo S10000x8 (shapeCast S1x8 x3 shapeCasts_S1x8_S1x8) broadcasts_S1x8_S10000x8)

theorem scores_apply (x0 : Vec Ideal S10000x64 .f32) (x1 : Vec Ideal S1x64 .f32) (x2 : Vec Ideal S64x8 .f32) (x3 : Vec Ideal S1x8 .f32)
    (p : Fin 10000) (c : Fin 8) :
    scores x0 x1 x2 x3 (ix2 p c)
      = scoreRow (rowOf x0 p) (fun k => x1 (ix2 (0 : Fin 1) k)) x2 (fun k => x3 (ix2 (0 : Fin 1) k)) c := by
  unfold scores scoreRow
  show (matmul (F := Ideal) dot_S10000x64_S64x8_S10000x8_1_0_0_1_n_n none _ _ (constant (F := Ideal) S10000x8 .f32 0x00000000#32) (ix2 p c) : EReal)
      + (broadcastTo S10000x8 (shapeCast S1x8 x3 shapeCasts_S1x8_S1x8) broadcasts_S1x8_S10000x8) (ix2 p c) = _
  rw [broadcastTo_1b_ab_apply, shapeCast_self x3]
  show _ + x3 (ix2 (0 : Fin 1) c) = dotRow _ x2 c + x3 (ix2 (0 : Fin 1) c)
  refine congrArg (· + x3 (ix2 (0 : Fin 1) c)) ?_
  refine (Cert.LibPlainMatmul.matmul_zero_ix2 dot_S10000x64_S64x8_S10000x8_1_0_0_1_n_n none rfl rfl d8_l0 d8_l1 d8_r0 d8_r1 _ _ p c).trans ?_
  unfold dotRow
  refine Finset.sum_congr rfl fun k _ => ?_
  refine congrArg (· * x2 (ix2 k c)) ?_
  exact rectified_apply x0 x1 p k

/-- Lane `k` put back into a row index is `(p, k)`. -/
theorem lift_lane (p : Fin 10000) (k : Fin (S10000x8.size 1)) :
    reduces_S10000x8_S10000.lift (ix1 p) k = ix2 p (⟨k.val, k.isLt⟩ : Fin 8) := by
  funext a
  apply Fin.ext
  match a with
  | ⟨0, _⟩ => rfl
  | ⟨1, _⟩ => rfl

/-- A row's largest lane: the fold of `max` from minus infinity over the eight lanes. -/
theorem laneMax_apply (S : FVec Ideal S10000x8 .f32) (p : Fin 10000) :
    multiReduction .maximumf [1] S10000 S 0xFF800000#32 reduces_S10000x8_S10000 (.inl rfl) rfl (ix1 p)
      = (Finset.univ : Finset (Fin 8)).fold max ninfWord (rowOf S p) := by
  refine (Ideal.multiReduction_maximumf_single S 0xFF800000#32 reduces_S10000x8_S10000 (.inl rfl) rfl (ix1 p)).trans ?_
  have hf : (S ∘ reduces_S10000x8_S10000.lift (ix1 p)) = fun k : Fin 8 => S (ix2 p k) :=
    funext fun k => congrArg S (lift_lane p k)
  exact congrArg (fun f => Finset.fold max ninfWord f (Finset.univ : Finset (Fin 8))) hf

/-- A row's lane sum. -/
theorem laneSum_apply (E : FVec Ideal S10000x8 .f32) (p : Fin 10000) :
    multiReduction .add [1] S10000 E 0x00000000#32 reduces_S10000x8_S10000 (.inl rfl) rfl (ix1 p)
      = ∑ k : Fin 8, E (ix2 p k) := by
  refine (Ideal.multiReduction_add_single E 0x00000000#32 reduces_S10000x8_S10000 (.inl rfl) rfl (ix1 p)).trans ?_
  exact Finset.sum_congr rfl fun k _ => congrArg E (lift_lane p k)

/-- A per-row value kept as a column and spread over the lanes reads, at `(p, c)`, the value of row `p`. -/
theorem spread_apply (v : FVec Ideal S10000 .f32) (p : Fin 10000) (c : Fin 8) :
    broadcastTo S10000x8 (shapeCast S10000x1 v shapeCasts_S10000_S10000x1) broadcasts_S10000x1_S10000x8 (ix2 p c) = v (ix1 p) := by
  rw [Cert.LibColumn.broadcastTo_a1_ab_apply, Cert.LibColumn.shapeCast_a_a1_apply]

/-- The softmax along the lanes, as the body spells it, of any score block. -/
def laneSoftmax (S : FVec Ideal S10000x8 .f32) : FVec Ideal S10000x8 .f32 :=
  have v16 : FVec Ideal S10000 .f32 := multiReduction .maximumf [1] S10000 S 0xFF800000#32 reduces_S10000x8_S10000 (.inl rfl) rfl
  have v18 : FVec Ideal S10000 .f32 := maximumf (broadcast S10000 (Scalar.ofBits (F := Ideal) .f32 0xFF800000#32)) v16
  have v22 : FVec Ideal S10000x8 .f32 :=
    exp (subf S (broadcastTo S10000x8 (shapeCast S10000x1 v18 shapeCasts_S10000_S10000x1) broadcasts_S10000x1_S10000x8))
  have v23 : FVec Ideal S10000 .f32 := multiReduction .add [1] S10000 v22 0x00000000#32 reduces_S10000x8_S10000 (.inl rfl) rfl
  divf v22 (broadcastTo S10000x8 (shapeCast S10000x1 v23 shapeCasts_S10000_S10000x1) broadcasts_S10000x1_S10000x8)

theorem laneSoftmax_apply (S : FVec Ideal S10000x8 .f32) (p : Fin 10000) (c : Fin 8) :
    laneSoftmax S (ix2 p c) = softmaxRow (rowOf S p) c := by
  unfold laneSoftmax
  dsimp only
  have htop : ∀ c' : Fin 8, (broadcastTo S10000x8 (shapeCast S10000x1
        (maximumf (broadcast S10000 (Scalar.ofBits (F := Ideal) .f32 0xFF800000#32))
          (multiReduction .maximumf [1] S10000 S 0xFF800000#32 reduces_S10000x8_S10000 (.inl rfl) rfl))
        shapeCasts_S10000_S10000x1) broadcasts_S10000x1_S10000x8) (ix2 p c') = rowTop (rowOf S p) := by
    intro c'
    rw [spread_apply]
    show max ninfWord (multiReduction .maximumf [1] S10000 S 0xFF800000#32 reduces_S10000x8_S10000 (.inl rfl) rfl (ix1 p)) = _
    rw [laneMax_apply]
    rfl
  show Ideal.div (Ideal.exp (S (ix2 p c) - _)) _ = _
  rw [htop c, spread_apply, laneSum_apply]
  unfold softmaxRow
  refine congrArg (Ideal.div (Ideal.exp (S (ix2 p c) - rowTop (rowOf S p)))) ?_
  refine Finset.sum_congr rfl fun k _ => ?_
  show Ideal.exp (S (ix2 p k) - _) = _
  rw [htop k]

theorem pay2_eq (x0 : Vec Ideal S10000x64 .f32) (x1 : Vec Ideal S1x64 .f32) (x2 : Vec Ideal S64x8 .f32) (x3 : Vec Ideal S1x8 .f32) :
    k2_pay1 (F := Ideal) x0 x1 x2 x3 = laneSoftmax (scores x0 x1 x2 x3) := rfl

theorem pay2_apply (x0 : Vec Ideal S10000x64 .f32) (x1 : Vec Ideal S1x64 .f32) (x2 : Vec Ideal S64x8 .f32) (x3 : Vec Ideal S1x8 .f32)
    (p : Fin 10000) (c : Fin 8) :
    k2_pay1 (F := Ideal) x0 x1 x2 x3 (ix2 p c)
      = softmaxRow (scoreRow (rowOf x0 p) (fun k => x1 (ix2 (0 : Fin 1) k)) x2 (fun k => x3 (ix2 (0 : Fin 1) k))) c := by
  rw [pay2_eq, laneSoftmax_apply]
  exact congrArg (fun s => softmaxRow s c) (funext fun k => scores_apply x0 x1 x2 x3 p k)

end Cert.KernelIdeal.Bodies

end
-- ==== Proof.Region0.lean ====
/-
  The first region: every row of its first array through its second.

  The region tiles the rows of an `[50000, 64]` array into five blocks of 10000 rows, keeps the `[64, 64]` matrix whole,
  and at each point stores the block's rows sent through the matrix. Block `t` of the output is rows
  `10000·t … 10000·t + 9999`, the five blocks cover the array, and entry `(p, c)` of a block depends on row `p` of the
  input block alone — so the output array is `project` of the two arrays the region finds on entry, whatever they hold.
-/
import proofs.«105237_j74629351735532_1_alg».proof.Proof.Gen.KernelIdeal.Frame
import proofs.«105237_j74629351735532_1_alg».proof.Proof.Bodies
import Idealize.ShloMosaic.Lib.Pipeline.Value

set_option maxRecDepth 16384

noncomputable section

namespace Cert.KernelIdeal.Region0

open Cert.KernelIdeal Cert.KernelIdeal.Gen Cert.KernelIdeal.Bodies Cert.RowForms
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows are at block `t` on the rows, the matrix at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the first window's block at point `t` is row `10000·t + p` of its array. -/
theorem rows_apply (c : Dev nD) (t : Fin cfg0.N) (p : Fin 10000) (k : Fin 64) (r : Fin 50000) (hr : r.val = 10000 * t.val + p.val) :
    (iblk0 V c 0 t : Vec Ideal S10000x64 .f32) (ix2 p k) = (V c main_arg0 : S50000x64.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 64 + 1 * k.val = k.val; rw [e1]; omega

/-- The second window's one block is its whole array. -/
theorem matrix_apply (c : Dev nD) (t : Fin cfg0.N) (k : Fin 64) (q : Fin 64) :
    (iblk0 V c 1 t : Vec Ideal S64x64 .f32) (ix2 k q) = (V c main_arg3 : S64x64.Idx → EReal) (ix2 k q) := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 64 + 1 * k.val = k.val; rw [e2]; omega
  | ⟨1, _⟩ => show win0_1.index t 1 * 64 + 1 * q.val = q.val; rw [e3]; omega

/-- What point `t` writes back is block `t` of `project` of the two arrays. -/
theorem flushed_eq (c : Dev nD) (t : Fin cfg0.N) :
    (dat0 V c).flushed 2 t = ((cfg0.win 2).blk t).view.read (Elt Ideal) (project (V c main_arg0) (V c main_arg3)) := by
  have hN : cfg0.N = 5 := N_0
  have ht : t.val < 5 := hN ▸ t.isLt
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  funext j
  obtain ⟨p, q, rfl⟩ : ∃ (p : Fin 10000) (q : Fin 64), j = ix2 p q := ⟨j 0, j 1, eq_ix2 j⟩
  have he : ((cfg0.win 2).blk t).view.emb (ix2 p q) = ix2 (⟨10000 * t.val + p.val, by omega⟩ : Fin 50000) q := by
    funext a
    apply Fin.ext
    match a with
    | ⟨0, _⟩ => show win0_2.index t 0 * 10000 + 1 * p.val = 10000 * t.val + p.val; rw [e4]; omega
    | ⟨1, _⟩ => show win0_2.index t 1 * 64 + 1 * q.val = q.val; rw [e5]; omega
  show k0_pay1 (F := Ideal) (iblk0 V c 0 t) (iblk0 V c 1 t) (ix2 p q)
    = project (V c main_arg0) (V c main_arg3) (((cfg0.win 2).blk t).view.emb (ix2 p q))
  rw [he, project_ix2]
  refine (pay0_apply (iblk0 V c 0 t) (iblk0 V c 1 t) p q).trans ?_
  unfold dotRow
  refine Finset.sum_congr rfl fun k _ => ?_
  exact congrArg₂ (· * ·) (rows_apply V c t p k ⟨10000 * t.val + p.val, by omega⟩ rfl) (matrix_apply V c t k q)

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Row `r` lies in the block of point `r / 10000`: the five blocks cover the array. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 5 := N_0
  have hlt : (i 0).val / 10000 < cfg0.N := by rw [hN]; omega
  obtain ⟨-, -, -, -, e4, e5⟩ := idx_facts ⟨(i 0).val / 10000, hlt⟩
  have e4' : win0_2.index ⟨(i 0).val / 10000, hlt⟩ 0 = (i 0).val / 10000 := e4
  refine ⟨⟨(i 0).val / 10000, hlt⟩, flush0_2 _, ?_⟩
  rw [mem_blk]
  intro a
  match a with
  | ⟨0, _⟩ =>
    show win0_2.index ⟨(i 0).val / 10000, hlt⟩ 0 * 10000 ≤ (i 0).val ∧ (i 0).val < win0_2.index ⟨(i 0).val / 10000, hlt⟩ 0 * 10000 + 10000
    rw [e4']; omega
  | ⟨1, _⟩ =>
    show win0_2.index ⟨(i 0).val / 10000, hlt⟩ 1 * 64 ≤ (i 1).val ∧ (i 1).val < win0_2.index ⟨(i 0).val / 10000, hlt⟩ 1 * 64 + 64
    rw [e5]; omega

/-- After the region its output array holds every row of its first array sent through its second. -/
theorem value (c : Dev nD) : (dat0 V c).arrAt 2 cfg0.N = project (V c main_arg0) (V c main_arg3) :=
  (dat0 V c).arrAt_eq_of_cover 2 (project (V c main_arg0) (V c main_arg3)) (fun t _ => flushed_eq V c t) cover

end Cert.KernelIdeal.Region0

end
-- ==== Proof.Region1.lean ====
/-
  The second region: every row biased, rectified, then through the weight matrix.

  The rows of an `[50000, 64]` array are tiled into five blocks of 10000; the `[1, 64]` bias row and the `[64, 64]`
  matrix are kept whole. A block's entry `(p, c)` depends on row `p` of the input block alone, block `t` is rows
  `10000·t …`, and the blocks cover the array: the output array is `layer` of the three arrays the region finds on
  entry, whatever they hold.
-/
import proofs.«105237_j74629351735532_1_alg».proof.Proof.Gen.KernelIdeal.Frame
import proofs.«105237_j74629351735532_1_alg».proof.Proof.Bodies
import Idealize.ShloMosaic.Lib.Pipeline.Value

set_option maxRecDepth 16384

noncomputable section

namespace Cert.KernelIdeal.Region1

open Cert.KernelIdeal Cert.KernelIdeal.Gen Cert.KernelIdeal.Bodies Cert.RowForms
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows are at block `t` on the rows, every other window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of window 0's block at point `t` is row `10000·t + p` of its array. -/
theorem rows_apply (c : Dev nD) (t : Fin cfg1.N) (p : Fin 10000) (k : Fin 64) (r : Fin 50000) (hr : r.val = 10000 * t.val + p.val) :
    (iblk1 V c 0 t : Vec Ideal S10000x64 .f32) (ix2 p k) = (V c main_v48 : S50000x64.Idx → EReal) (ix2 r k) := by
  obtain ⟨f0, f1, f2, f3, f4, f5, f6, f7⟩ := idx_facts t
  unfold iblk1
  rw [View.read_apply]
  show V c main_v48 _ = V c main_v48 _
  congr 1
  funext a
  apply Fin.ext
  match a with
  | ⟨0, _⟩ => show win1_0.index t 0 * 10000 + 1 * p.val = r.val; rw [f0, hr]; omega
  | ⟨1, _⟩ => show win1_0.index t 1 * 64 + 1 * k.val = k.val; rw [f1]; omega

/-- Window 1's one block is its whole array. -/
theorem bias_apply (c : Dev nD) (t : Fin cfg1.N) (u : Fin 1) (k : Fin 64) :
    (iblk1 V c 1 t : Vec Ideal S1x64 .f32) (ix2 u k) = (V c main_v49 : S1x64.Idx → EReal) (ix2 u k) := by
  obtain ⟨f0, f1, f2, f3, f4, f5, f6, f7⟩ := idx_facts t
  unfold iblk1
  rw [View.read_apply]
  show V c main_v49 _ = V c main_v49 _
  congr 1
  funext a
  apply Fin.ext
  match a with
  | ⟨0, _⟩ => show win1_1.index t 0 * 1 + 1 * u.val = u.val; rw [f2]; omega
  | ⟨1, _⟩ => show win1_1.index t 1 * 64 + 1 * k.val = k.val; rw [f3]; omega

/-- Window 2's one block is its whole array. -/
theorem matrix_apply (c : Dev nD) (t : Fin cfg1.N) (u : Fin 64) (k : Fin 64) :
    (iblk1 V c 2 t : Vec Ideal S64x64 .f32) (ix2 u k) = (V c main_arg5 : S64x64.Idx → EReal) (ix2 u k) := by
  obtain ⟨f0, f1, f2, f3, f4, f5, f6, f7⟩ := idx_facts t
  unfold iblk1
  rw [View.read_apply]
  show V c main_arg5 _ = V c main_arg5 _
  congr 1
  funext a
  apply Fin.ext
  match a with
  | ⟨0, _⟩ => show win1_2.index t 0 * 64 + 1 * u.val = u.val; rw [f4]; omega
  | ⟨1, _⟩ => show win1_2.index t 1 * 64 + 1 * k.val = k.val; rw [f5]; omega

/-- The region's result as one function of the arrays it finds: `layer` of the row array, the bias row and the matrix. -/
abbrev G (c : Dev nD) : S50000x64.Idx → EReal := layer (V c main_v48 : S50000x64.Idx → EReal) (fun k => (V c main_v49 : S1x64.Idx → EReal) (ix2 (0 : Fin 1) k)) (V c main_arg5 : S64x64.Idx → EReal)

/-- Equal rows, biases and matrices give equal entries. -/
theorem entry_congr (q : Fin 64) (a a' b b' : Fin 64 → EReal) (W W' : S64x64.Idx → EReal) (h1 : a = a') (h2 : b = b') (h3 : W = W') :
    dotRow (reluRow a b) W q = dotRow (reluRow a' b') W' q := by rw [h1, h2, h3]

/-- What point `t` writes back is block `t` of that function of the arrays the region finds. -/
theorem flushed_eq (c : Dev nD) (t : Fin cfg1.N) :
    (dat1 V c).flushed 3 t = ((cfg1.win 3).blk t).view.read (Elt Ideal) (G V c) := by
  have hN : cfg1.N = 5 := N_1
  have ht : t.val < 5 := hN ▸ t.isLt
  obtain ⟨f0, f1, f2, f3, f4, f5, f6, f7⟩ := idx_facts t
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  funext j
  obtain ⟨p, q, rfl⟩ : ∃ (p : Fin 10000) (q : Fin 64), j = ix2 p q := ⟨j 0, j 1, eq_ix2 j⟩
  have he : ((cfg1.win 3).blk t).view.emb (ix2 p q) = ix2 (⟨10000 * t.val + p.val, by omega⟩ : Fin 50000) q := by
    funext a
    apply Fin.ext
    match a with
    | ⟨0, _⟩ => show win1_3.index t 0 * 10000 + 1 * p.val = 10000 * t.val + p.val; rw [f6]; omega
    | ⟨1, _⟩ => show win1_3.index t 1 * 64 + 1 * q.val = q.val; rw [f7]; omega
  show k1_pay1 (F := Ideal) (iblk1 V c 0 t) (iblk1 V c 1 t) (iblk1 V c 2 t) (ix2 p q)
    = G V c (((cfg1.win 3).blk t).view.emb (ix2 p q))
  rw [he]
  refine (pay1_apply (iblk1 V c 0 t) (iblk1 V c 1 t) (iblk1 V c 2 t) p q).trans ?_
  exact entry_congr q _ _ _ _ _ _
    (funext fun k => rows_apply V c t p k ⟨10000 * t.val + p.val, by omega⟩ rfl)
    (funext fun k => bias_apply V c t 0 k)
    (funext fun j => by
      obtain ⟨u, k, rfl⟩ : ∃ (u : Fin 64) (k : Fin 64), j = ix2 u k := ⟨j 0, j 1, eq_ix2 j⟩
      exact matrix_apply V c t u k)

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v50).slice (win1_3.rect t)).set ↔ _
  rw [View.set_slice_whole, Rect.mem_set_unit]
  exact Iff.rfl

/-- Row `r` lies in the block of point `r / 10000`: the five blocks cover the array. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 5 := N_1
  have hlt : (i 0).val / 10000 < cfg1.N := by rw [hN]; omega
  obtain ⟨f0, f1, f2, f3, f4, f5, f6, f7⟩ := idx_facts ⟨(i 0).val / 10000, hlt⟩
  have e4' : win1_3.index ⟨(i 0).val / 10000, hlt⟩ 0 = (i 0).val / 10000 := f6
  refine ⟨⟨(i 0).val / 10000, hlt⟩, flush1_3 _, ?_⟩
  rw [mem_blk]
  intro a
  match a with
  | ⟨0, _⟩ =>
    show win1_3.index ⟨(i 0).val / 10000, hlt⟩ 0 * 10000 ≤ (i 0).val ∧ (i 0).val < win1_3.index ⟨(i 0).val / 10000, hlt⟩ 0 * 10000 + 10000
    rw [e4']; omega
  | ⟨1, _⟩ =>
    show win1_3.index ⟨(i 0).val / 10000, hlt⟩ 1 * 64 ≤ (i 1).val ∧ (i 1).val < win1_3.index ⟨(i 0).val / 10000, hlt⟩ 1 * 64 + 64
    rw [f7]; omega

/-- After the region its output array holds that function of the arrays the region found on entry. -/
theorem value (c : Dev nD) : (dat1 V c).arrAt 3 cfg1.N = G V c :=
  (dat1 V c).arrAt_eq_of_cover 3 (G V c) (fun t _ => flushed_eq V c t) cover

end Cert.KernelIdeal.Region1

end
-- ==== Proof.Region2.lean ====
/-
  The third region: every row biased, rectified, sent to eight scores, and normalised.

  The rows of an `[50000, 64]` array are tiled into five blocks of 10000; the `[1, 64]` bias row, the `[64, 8]` matrix
  and the `[1, 8]` bias row are kept whole. The softmax runs along the eight lanes of a row, so a block's entry `(p, c)`
  depends on row `p` of the input block alone; block `t` is rows `10000·t …` and the blocks cover the array: the output
  array is `classify` of the four arrays the region finds on entry, whatever they hold.
-/
import proofs.«105237_j74629351735532_1_alg».proof.Proof.Gen.KernelIdeal.Frame
import proofs.«105237_j74629351735532_1_alg».proof.Proof.Bodies
import Idealize.ShloMosaic.Lib.Pipeline.Value

set_option maxRecDepth 16384

noncomputable section

namespace Cert.KernelIdeal.Region2

open Cert.KernelIdeal Cert.KernelIdeal.Gen Cert.KernelIdeal.Bodies Cert.RowForms
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: the row-tiled windows are at block `t` on the rows, every other window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of window 0's block at point `t` is row `10000·t + p` of its array. -/
theorem rows_apply (c : Dev nD) (t : Fin cfg2.N) (p : Fin 10000) (k : Fin 64) (r : Fin 50000) (hr : r.val = 10000 * t.val + p.val) :
    (iblk2 V c 0 t : Vec Ideal S10000x64 .f32) (ix2 p k) = (V c main_v63 : S50000x64.Idx → EReal) (ix2 r k) := by
  obtain ⟨f0, f1, f2, f3, f4, f5, f6, f7, f8, f9⟩ := idx_facts t
  unfold iblk2
  rw [View.read_apply]
  show V c main_v63 _ = V c main_v63 _
  congr 1
  funext a
  apply Fin.ext
  match a with
  | ⟨0, _⟩ => show win2_0.index t 0 * 10000 + 1 * p.val = r.val; rw [f0, hr]; omega
  | ⟨1, _⟩ => show win2_0.index t 1 * 64 + 1 * k.val = k.val; rw [f1]; omega

/-- Window 1's one block is its whole array. -/
theorem bias_apply (c : Dev nD) (t : Fin cfg2.N) (u : Fin 1) (k : Fin 64) :
    (iblk2 V c 1 t : Vec Ideal S1x64 .f32) (ix2 u k) = (V c main_v64 : S1x64.Idx → EReal) (ix2 u k) := by
  obtain ⟨f0, f1, f2, f3, f4, f5, f6, f7, f8, f9⟩ := idx_facts t
  unfold iblk2
  rw [View.read_apply]
  show V c main_v64 _ = V c main_v64 _
  congr 1
  funext a
  apply Fin.ext
  match a with
  | ⟨0, _⟩ => show win2_1.index t 0 * 1 + 1 * u.val = u.val; rw [f2]; omega
  | ⟨1, _⟩ => show win2_1.index t 1 * 64 + 1 * k.val = k.val; rw [f3]; omega

/-- Window 2's one block is its whole array. -/
theorem matrix_apply (c : Dev nD) (t : Fin cfg2.N) (u : Fin 64) (k : Fin 8) :
    (iblk2 V c 2 t : Vec Ideal S64x8 .f32) (ix2 u k) = (V c main_arg7 : S64x8.Idx → EReal) (ix2 u k) := by
  obtain ⟨f0, f1, f2, f3, f4, f5, f6, f7, f8, f9⟩ := idx_facts t
  unfold iblk2
  rw [View.read_apply]
  show V c main_arg7 _ = V c main_arg7 _
  congr 1
  funext a
  apply Fin.ext
  match a with
  | ⟨0, _⟩ => show win2_2.index t 0 * 64 + 1 * u.val = u.val; rw [f4]; omega
  | ⟨1, _⟩ => show win2_2.index t 1 * 8 + 1 * k.val = k.val; rw [f5]; omega

/-- Window 3's one block is its whole array. -/
theorem obias_apply (c : Dev nD) (t : Fin cfg2.N) (u : Fin 1) (k : Fin 8) :
    (iblk2 V c 3 t : Vec Ideal S1x8 .f32) (ix2 u k) = (V c main_v65 : S1x8.Idx → EReal) (ix2 u k) := by
  obtain ⟨f0, f1, f2, f3, f4, f5, f6, f7, f8, f9⟩ := idx_facts t
  unfold iblk2
  rw [View.read_apply]
  show V c main_v65 _ = V c main_v65 _
  congr 1
  funext a
  apply Fin.ext
  match a with
  | ⟨0, _⟩ => show win2_3.index t 0 * 1 + 1 * u.val = u.val; rw [f6]; omega
  | ⟨1, _⟩ => show win2_3.index t 1 * 8 + 1 * k.val = k.val; rw [f7]; omega

/-- The region's result as one function of the arrays it finds: `classify` of the row array, the two bias rows and the matrix. -/
abbrev G (c : Dev nD) : S50000x8.Idx → EReal := classify (V c main_v63 : S50000x64.Idx → EReal) (fun k => (V c main_v64 : S1x64.Idx → EReal) (ix2 (0 : Fin 1) k)) (V c main_arg7 : S64x8.Idx → EReal) (fun k => (V c main_v65 : S1x8.Idx → EReal) (ix2 (0 : Fin 1) k))

/-- Equal rows, biases and matrices give equal entries. -/
theorem entry_congr (q : Fin 8) (a a' b b' : Fin 64 → EReal) (W W' : S64x8.Idx → EReal) (bm bm' : Fin 8 → EReal)
    (h1 : a = a') (h2 : b = b') (h3 : W = W') (h4 : bm = bm') :
    softmaxRow (scoreRow a b W bm) q = softmaxRow (scoreRow a' b' W' bm') q := by rw [h1, h2, h3, h4]

/-- What point `t` writes back is block `t` of that function of the arrays the region finds. -/
theorem flushed_eq (c : Dev nD) (t : Fin cfg2.N) :
    (dat2 V c).flushed 4 t = ((cfg2.win 4).blk t).view.read (Elt Ideal) (G V c) := by
  have hN : cfg2.N = 5 := N_2
  have ht : t.val < 5 := hN ▸ t.isLt
  obtain ⟨f0, f1, f2, f3, f4, f5, f6, f7, f8, f9⟩ := idx_facts t
  show (cfg2.win 4).cut (grid2.coords t) ((dat2 V c).after 4 t) = _
  rw [after2_4]
  unfold out2_4
  rw [View.canon_unit_zero hz]
  simp only [View.ld_unit_zero (S := S10000x64) hz, View.ld_unit_zero (S := S1x64) hz, View.ld_unit_zero (S := S64x8) hz, View.ld_unit_zero (S := S1x8) hz, View.ld_unit_zero (S := S10000x8) hz]
  funext j
  obtain ⟨p, q, rfl⟩ : ∃ (p : Fin 10000) (q : Fin 8), j = ix2 p q := ⟨j 0, j 1, eq_ix2 j⟩
  have he : ((cfg2.win 4).blk t).view.emb (ix2 p q) = ix2 (⟨10000 * t.val + p.val, by omega⟩ : Fin 50000) q := by
    funext a
    apply Fin.ext
    match a with
    | ⟨0, _⟩ => show win2_4.index t 0 * 10000 + 1 * p.val = 10000 * t.val + p.val; rw [f8]; omega
    | ⟨1, _⟩ => show win2_4.index t 1 * 8 + 1 * q.val = q.val; rw [f9]; omega
  show k2_pay1 (F := Ideal) (iblk2 V c 0 t) (iblk2 V c 1 t) (iblk2 V c 2 t) (iblk2 V c 3 t) (ix2 p q)
    = G V c (((cfg2.win 4).blk t).view.emb (ix2 p q))
  rw [he]
  refine (pay2_apply (iblk2 V c 0 t) (iblk2 V c 1 t) (iblk2 V c 2 t) (iblk2 V c 3 t) p q).trans ?_
  exact entry_congr q _ _ _ _ _ _ _ _
    (funext fun k => rows_apply V c t p k ⟨10000 * t.val + p.val, by omega⟩ rfl)
    (funext fun k => bias_apply V c t 0 k)
    (funext fun j => by
      obtain ⟨u, k, rfl⟩ : ∃ (u : Fin 64) (k : Fin 8), j = ix2 u k := ⟨j 0, j 1, eq_ix2 j⟩
      exact matrix_apply V c t u k)
    (funext fun k => obias_apply V c t 0 k)

/-- An index of the output array is in point `t`'s block iff each coordinate is in the block's range on its axis. -/
theorem mem_blk (t : Fin cfg2.N) (i : S50000x8.Idx) :
    i ∈ ((cfg2.win 4).blk t).view.set ↔ ∀ a : Fin 2, win2_4.index t a * S10000x8.size a ≤ (i a).val ∧ (i a).val < win2_4.index t a * S10000x8.size a + S10000x8.size a := by
  show i ∈ ((View.whole main_v66).slice (win2_4.rect t)).set ↔ _
  rw [View.set_slice_whole, Rect.mem_set_unit]
  exact Iff.rfl

/-- Row `r` lies in the block of point `r / 10000`: the five blocks cover the array. -/
theorem cover (i : S50000x8.Idx) : ∃ t : Fin cfg2.N, (cfg2.win 4).flush t = true ∧ i ∈ ((cfg2.win 4).blk t).view.set := by
  have hi0 : (i 0).val < 50000 := (i 0).isLt
  have hi1 : (i 1).val < 8 := (i 1).isLt
  have hN : cfg2.N = 5 := N_2
  have hlt : (i 0).val / 10000 < cfg2.N := by rw [hN]; omega
  obtain ⟨f0, f1, f2, f3, f4, f5, f6, f7, f8, f9⟩ := idx_facts ⟨(i 0).val / 10000, hlt⟩
  have e4' : win2_4.index ⟨(i 0).val / 10000, hlt⟩ 0 = (i 0).val / 10000 := f8
  refine ⟨⟨(i 0).val / 10000, hlt⟩, flush2_4 _, ?_⟩
  rw [mem_blk]
  intro a
  match a with
  | ⟨0, _⟩ =>
    show win2_4.index ⟨(i 0).val / 10000, hlt⟩ 0 * 10000 ≤ (i 0).val ∧ (i 0).val < win2_4.index ⟨(i 0).val / 10000, hlt⟩ 0 * 10000 + 10000
    rw [e4']; omega
  | ⟨1, _⟩ =>
    show win2_4.index ⟨(i 0).val / 10000, hlt⟩ 1 * 8 ≤ (i 1).val ∧ (i 1).val < win2_4.index ⟨(i 0).val / 10000, hlt⟩ 1 * 8 + 8
    rw [f9]; omega

/-- After the region its output array holds that function of the arrays the region found on entry. -/
theorem value (c : Dev nD) : (dat2 V c).arrAt 4 cfg2.N = G V c :=
  (dat2 V c).arrAt_eq_of_cover 4 (G V c) (fun t _ => flushed_eq V c t) cover

end Cert.KernelIdeal.Region2

end
-- ==== Proof.Stages.lean ====
/-
  The reference's dense stages, read as the network's row-wise arithmetic.

  Between its neighbourhood sums the reference sends the node features through a matrix, adds a bias and rectifies,
  sends the result through the next matrix, and at the end adds a bias to eight scores and takes the softmax of
  each row. Read at an entry `(r, c)`, each of these stages is a function of row `r` of the stage before it: the
  functions `project`, `layer` and `classify` of `RowForms` applied to whole arrays. The neighbourhood sums themselves
  (a gather, a scaling and a scatter-add) are left as the host operations they are.
-/
import proofs.«105237_j74629351735532_1_alg».proof.Proof.Gen.ReferenceIdeal.Read
import proofs.«105237_j74629351735532_1_alg».proof.Proof.RowForms

noncomputable section

namespace Cert.ReferenceIdeal.Stages

open Cert.ReferenceIdeal Cert.ReferenceIdeal.Gen Cert.ReferenceIdeal.Read Cert.RowForms
open Idealize.ShloMosaic Idealize.ShloMosaic.ValueIdx
open scoped BigOperators

variable (x0 : (⟨S50000x64, .f32⟩ : BufTy).Contents (Elt Ideal)) (x1 : (⟨S2x800000, .i32⟩ : BufTy).Contents (Elt Ideal))
  (x2 : (⟨S800000, .f32⟩ : BufTy).Contents (Elt Ideal)) (x3 : (⟨S64x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x8, .f32⟩ : BufTy).Contents (Elt Ideal))
  (x8 : (⟨S8, .f32⟩ : BufTy).Contents (Elt Ideal))

/-! ## The first projection -/

theorem project_eq : val_main_v35 (F := Ideal) x0 x3 = project x0 x3 := by
  funext i
  obtain ⟨r, o, rfl⟩ : ∃ (r : Fin 50000) (o : Fin 64), i = ix2 r o := ⟨i 0, i 1, eq_ix2 i⟩
  rw [val_main_v35_apply, project_ix2]
  unfold dotRow
  refine Finset.sum_congr rfl fun k _ => ?_
  have el : lidx_main_v35 (ix2 r o) k = ix2 r k := funext fun a => Fin.ext (by match a with | ⟨0, _⟩ => rfl | ⟨1, _⟩ => rfl)
  have er : ridx_main_v35 (ix2 r o) k = ix2 k o := funext fun a => Fin.ext (by match a with | ⟨0, _⟩ => rfl | ⟨1, _⟩ => rfl)
  rw [el, er]

/-! ## The first layer: bias, rectifier, second projection -/

theorem rectified1_apply (r : Fin 50000) (k : Fin 64) :
    val_main_v52 (F := Ideal) x0 x1 x2 x3 x4 (ix2 r k) = reluRow (rowOf (val_main_v48 (F := Ideal) x0 x1 x2 x3) r) (fun k => x4 (ix1 k)) k := by
  rw [val_main_v52_apply, val_main_v51_apply, val_main_v50_apply, val_main_v49_apply, val_main_call2_v0_apply, val_main_call2_cst_apply]
  have e : idx_main_v49 (idx_main_v50 (ix2 r k)) = ix1 k := funext fun a => Fin.ext (by match a with | ⟨0, _⟩ => rfl)
  rw [e]
  rfl

theorem layer_eq : val_main_v53 (F := Ideal) x0 x1 x2 x3 x4 x5 = layer (val_main_v48 (F := Ideal) x0 x1 x2 x3) (fun k => x4 (ix1 k)) x5 := by
  funext i
  obtain ⟨r, o, rfl⟩ : ∃ (r : Fin 50000) (o : Fin 64), i = ix2 r o := ⟨i 0, i 1, eq_ix2 i⟩
  rw [val_main_v53_apply, layer_ix2]
  unfold dotRow
  refine Finset.sum_congr rfl fun k _ => ?_
  have el : lidx_main_v53 (ix2 r o) k = ix2 r k := funext fun a => Fin.ext (by match a with | ⟨0, _⟩ => rfl | ⟨1, _⟩ => rfl)
  have er : ridx_main_v53 (ix2 r o) k = ix2 k o := funext fun a => Fin.ext (by match a with | ⟨0, _⟩ => rfl | ⟨1, _⟩ => rfl)
  rw [el, er, rectified1_apply]

/-! ## The second layer and the scores -/

theorem rectified2_apply (r : Fin 50000) (k : Fin 64) :
    val_main_v70 (F := Ideal) x0 x1 x2 x3 x4 x5 x6 (ix2 r k) = reluRow (rowOf (val_main_v66 (F := Ideal) x0 x1 x2 x3 x4 x5) r) (fun k => x6 (ix1 k)) k := by
  rw [val_main_v70_apply, val_main_v69_apply, val_main_v68_apply, val_main_v67_apply, val_main_call3_v0_apply, val_main_call3_cst_apply]
  have e : idx_main_v67 (idx_main_v68 (ix2 r k)) = ix1 k := funext fun a => Fin.ext (by match a with | ⟨0, _⟩ => rfl)
  rw [e]
  rfl

theorem scores_apply (r : Fin 50000) (c : Fin 8) :
    val_main_v74 (F := Ideal) x0 x1 x2 x3 x4 x5 x6 x7 x8 (ix2 r c)
      = scoreRow (rowOf (val_main_v66 (F := Ideal) x0 x1 x2 x3 x4 x5) r) (fun k => x6 (ix1 k)) x7 (fun k => x8 (ix1 k)) c := by
  rw [val_main_v74_apply, val_main_v73_apply, val_main_v72_apply, val_main_v71_apply]
  have e : idx_main_v72 (idx_main_v73 (ix2 r c)) = ix1 c := funext fun a => Fin.ext (by match a with | ⟨0, _⟩ => rfl)
  rw [e]
  unfold scoreRow dotRow
  show _ + x8 (ix1 c) = _ + x8 (ix1 c)
  refine congrArg (· + x8 (ix1 c)) ?_
  refine Finset.sum_congr rfl fun k _ => ?_
  have el : lidx_main_v71 (ix2 r c) k = ix2 r k := funext fun a => Fin.ext (by match a with | ⟨0, _⟩ => rfl | ⟨1, _⟩ => rfl)
  have er : ridx_main_v71 (ix2 r c) k = ix2 k c := funext fun a => Fin.ext (by match a with | ⟨0, _⟩ => rfl | ⟨1, _⟩ => rfl)
  rw [el, er, rectified2_apply]

/-! ## The softmax of a row of scores -/

/-- The host's maximum over a row, from minus infinity. -/
theorem rowMax_apply (y : S50000x8.Idx → EReal) (r : Fin 50000) :
    Host.reduce (FloatOps.maximumf (F := Ideal) (φ := .f32)) y (val_main_cst_14 (F := Ideal)) reducesTo_S50000x8_S50000_d1 h_S_ (ix1 r)
      = (Finset.univ : Finset (Fin 8)).fold max ninfWord (rowOf y r) := by
  have h : S50000x8.Reduces [1] S50000 := by decide
  refine (Host.reduce_eq_fold_single (FloatOps.maximumf (F := Ideal) (φ := .f32)) y _ reducesTo_S50000x8_S50000_d1 h h_S_ (ix1 r)).trans ?_
  have hf : (y ∘ h.lift (ix1 r)) = fun k : Fin 8 => y (ix2 r k) :=
    funext fun k => congrArg y (funext fun a => Fin.ext (by match a with | ⟨0, _⟩ => rfl | ⟨1, _⟩ => rfl))
  exact congrArg (fun f => Finset.fold max ninfWord f (Finset.univ : Finset (Fin 8))) hf

theorem top_apply (r : Fin 50000) (c : Fin 8) :
    val_main_v79 (F := Ideal) x0 x1 x2 x3 x4 x5 x6 x7 x8 (ix2 r c) = rowTop (rowOf (val_main_v74 (F := Ideal) x0 x1 x2 x3 x4 x5 x6 x7 x8) r) := by
  rw [val_main_v79_apply, val_main_v78_apply]
  have e : idx_main_v78 (idx_main_v79 (ix2 r c)) = ix1 r := funext fun a => Fin.ext (by match a with | ⟨0, _⟩ => rfl)
  rw [e, val_main_v77_apply, val_main_v76_apply, val_main_cst_15_apply]
  unfold val_main_v75
  show max ninfWord (Host.reduce (FloatOps.maximumf (F := Ideal) (φ := .f32)) (val_main_v74 (F := Ideal) x0 x1 x2 x3 x4 x5 x6 x7 x8) (val_main_cst_14 (F := Ideal)) reducesTo_S50000x8_S50000_d1 h_S_ (ix1 r)) = _
  rw [rowMax_apply]
  rfl

theorem expd_apply (r : Fin 50000) (c : Fin 8) :
    val_main_v81 (F := Ideal) x0 x1 x2 x3 x4 x5 x6 x7 x8 (ix2 r c)
      = Ideal.exp (val_main_v74 (F := Ideal) x0 x1 x2 x3 x4 x5 x6 x7 x8 (ix2 r c) - rowTop (rowOf (val_main_v74 (F := Ideal) x0 x1 x2 x3 x4 x5 x6 x7 x8) r)) := by
  rw [val_main_v81_apply, val_main_v80_apply, top_apply, Ideal.hostUnary_exp_def, Ideal.subf_def]

theorem classify_eq :
    val_main_v85 (F := Ideal) x0 x1 x2 x3 x4 x5 x6 x7 x8
      = classify (val_main_v66 (F := Ideal) x0 x1 x2 x3 x4 x5) (fun k => x6 (ix1 k)) x7 (fun k => x8 (ix1 k)) := by
  funext i
  obtain ⟨r, c, rfl⟩ : ∃ (r : Fin 50000) (c : Fin 8), i = ix2 r c := ⟨i 0, i 1, eq_ix2 i⟩
  rw [val_main_v85_apply, val_main_v84_apply, val_main_v83_apply]
  have e : idx_main_v83 (idx_main_v84 (ix2 r c)) = ix1 r := funext fun a => Fin.ext (by match a with | ⟨0, _⟩ => rfl)
  rw [e, val_main_v82_apply, classify_ix2]
  have hs : rowOf (val_main_v74 (F := Ideal) x0 x1 x2 x3 x4 x5 x6 x7 x8) r
      = scoreRow (rowOf (val_main_v66 (F := Ideal) x0 x1 x2 x3 x4 x5) r) (fun k => x6 (ix1 k)) x7 (fun k => x8 (ix1 k)) :=
    funext fun k => scores_apply x0 x1 x2 x3 x4 x5 x6 x7 x8 r k
  rw [← hs]
  unfold softmaxRow
  show Ideal.div (val_main_v81 (F := Ideal) x0 x1 x2 x3 x4 x5 x6 x7 x8 (ix2 r c)) (Ideal.ofBits .f32 0x00000000#32 + _) = _
  rw [Ideal.ofBits_zero_f32, zero_add, expd_apply]
  refine congrArg (Ideal.div _) ?_
  refine Finset.sum_congr rfl fun k _ => ?_
  have ek : idx_main_v82 (ix1 r) k = ix2 r k := funext fun a => Fin.ext (by match a with | ⟨0, _⟩ => rfl | ⟨1, _⟩ => rfl)
  rw [ek, expd_apply]

/-! ## The neighbourhood sum, and the network as one function of the arguments -/

/-- The neighbourhood sum of a feature array `h` over the edge list (sources `s`, destinations `d`, edge norm `n`):
    each edge gathers its source's row (a negative index counted from the end), scales it by the edge's norm, and the
    scaled rows are added into their destinations' rows of a zero array. The host operations are kept as they are. -/
def agg (h : (⟨S50000x64, .f32⟩ : BufTy).Contents (Elt Ideal)) (s d : (⟨S850000, .i32⟩ : BufTy).Contents (Elt Ideal))
    (n : (⟨S850000, .f32⟩ : BufTy).Contents (Elt Ideal)) : (⟨S50000x64, .f32⟩ : BufTy).Contents (Elt Ideal) :=
  Host.scatterAdd (F := Ideal) (φ := .f32) scatter_S50000x64_S850000x1_S850000x64_1_0_0_1 (val_main_v46 (F := Ideal))
    (broadcastInDim S850000x1 ![0] bcast_S850000_S850000x1_0 d)
    (mulf (F := Ideal) (φ := .f32) (s := S850000x64)
      (Host.gather (α := Ideal .f32) gather_S50000x64_S850000x1_S850000x64_1_0_n_n_0_1_164 h
        (broadcastInDim S850000x1 ![0] bcast_S850000_S850000x1_0
          (select (cmpi .slt s (val_main_v36 (F := Ideal))) (addi s (val_main_v38 (F := Ideal))) s)))
      (broadcastInDim (α := Ideal .f32) S850000x64 ![0, 1] bcast_S850000x1_S850000x64_0_1
        (broadcastInDim (α := Ideal .f32) S850000x1 ![0] bcast_S850000_S850000x1_0 n)))

theorem agg1_eq : val_main_v48 (F := Ideal) x0 x1 x2 x3
    = agg (val_main_v35 (F := Ideal) x0 x3) (val_main_v3 (F := Ideal) x1) (val_main_v6 (F := Ideal) x1) (val_main_v34 (F := Ideal) x1 x2) := rfl

theorem agg2_eq : val_main_v66 (F := Ideal) x0 x1 x2 x3 x4 x5
    = agg (val_main_v53 (F := Ideal) x0 x1 x2 x3 x4 x5) (val_main_v3 (F := Ideal) x1) (val_main_v6 (F := Ideal) x1) (val_main_v34 (F := Ideal) x1 x2) := rfl

/-- The whole network as one function of the nine arguments: two rounds of projecting (the second after bias and
    rectifier) and summing over neighbourhoods, then bias, rectifier, scores and softmax. -/
def net : (⟨S50000x8, .f32⟩ : BufTy).Contents (Elt Ideal) :=
  classify
    (agg (layer (agg (project x0 x3) (val_main_v3 (F := Ideal) x1) (val_main_v6 (F := Ideal) x1) (val_main_v34 (F := Ideal) x1 x2))
        (fun k => x4 (ix1 k)) x5)
      (val_main_v3 (F := Ideal) x1) (val_main_v6 (F := Ideal) x1) (val_main_v34 (F := Ideal) x1 x2))
    (fun k => x6 (ix1 k)) x7 (fun k => x8 (ix1 k))

/-- The reference's result is that function. -/
theorem net_eq : val_main_v85 (F := Ideal) x0 x1 x2 x3 x4 x5 x6 x7 x8 = net x0 x1 x2 x3 x4 x5 x6 x7 x8 := by
  rw [classify_eq, agg2_eq, layer_eq, agg1_eq, project_eq]
  rfl

/-! ## The edge norm, in the three pieces it is computed in -/

/-- The weighted in-degree: each edge's weight added into its destination's entry of a zero vector. -/
def deg (dst : (⟨S850000, .i32⟩ : BufTy).Contents (Elt Ideal)) (w : (⟨S850000, .f32⟩ : BufTy).Contents (Elt Ideal)) :
    (⟨S50000, .f32⟩ : BufTy).Contents (Elt Ideal) :=
  Host.scatterAdd (F := Ideal) (φ := .f32) scatter_S50000_S850000x1_S850000_n_0_0_1 (val_main_v9 (F := Ideal))
    (broadcastInDim S850000x1 ![0] bcast_S850000_S850000x1_0 dst) w

/-- The inverse square root of a positive degree, and zero where the degree is not positive. -/
def dinv (g : (⟨S50000, .f32⟩ : BufTy).Contents (Elt Ideal)) : (⟨S50000, .f32⟩ : BufTy).Contents (Elt Ideal) :=
  select (cmpf (F := Ideal) (φ := .f32) .ogt g (val_main_v12 (F := Ideal)))
    (Host.rsqrt (F := Ideal) (φ := .f32) (select (cmpf (F := Ideal) (φ := .f32) .ogt g (val_main_v14 (F := Ideal))) g (val_main_call0_v1 (F := Ideal))))
    (val_main_call1_v1 (F := Ideal))

/-- An edge's norm: its source's inverse root degree, times its weight, times its destination's inverse root degree. -/
def enorm (q : (⟨S50000, .f32⟩ : BufTy).Contents (Elt Ideal)) (src dst : (⟨S850000, .i32⟩ : BufTy).Contents (Elt Ideal))
    (w : (⟨S850000, .f32⟩ : BufTy).Contents (Elt Ideal)) : (⟨S850000, .f32⟩ : BufTy).Contents (Elt Ideal) :=
  mulf (F := Ideal) (φ := .f32) (s := S850000)
    (mulf (F := Ideal) (φ := .f32) (s := S850000)
      (Host.gather (α := Ideal .f32) gather_S50000_S850000x1_S850000_n_0_n_n_0_1_1 q
        (broadcastInDim S850000x1 ![0] bcast_S850000_S850000x1_0
          (select (cmpi .slt src (val_main_v19 (F := Ideal))) (addi src (val_main_v21 (F := Ideal))) src)))
      w)
    (Host.gather (α := Ideal .f32) gather_S50000_S850000x1_S850000_n_0_n_n_0_1_1 q
      (broadcastInDim S850000x1 ![0] bcast_S850000_S850000x1_0
        (select (cmpi .slt dst (val_main_v27 (F := Ideal))) (addi dst (val_main_v29 (F := Ideal))) dst)))

theorem nrm_eq : val_main_v34 (F := Ideal) x1 x2
    = enorm (dinv (deg (val_main_v6 (F := Ideal) x1) (val_main_v8 (F := Ideal) x2)))
        (val_main_v3 (F := Ideal) x1) (val_main_v6 (F := Ideal) x1) (val_main_v8 (F := Ideal) x2) := rfl

end Cert.ReferenceIdeal.Stages

end
-- ==== Proof.Chain.lean ====
/-
  The idealized kernel's result buffer, read back to the arguments.

  The run leaves the result buffer at the value of a fold: the launch memory pushed through five stretches of host
  operations (the edge list with self loops, the weighted in-degree, its inverse square root, the per-edge norm),
  the first region (the projection), a host stretch (the neighbourhood sum), the second region (bias, rectifier,
  projection), another neighbourhood sum, and the third region (bias, rectifier, scores, softmax). This module reads
  the buffers that matter at each boundary of that fold, one stretch at a time and from any contents the stretch may
  start at, and composes the readings: the result buffer holds the network function `net` of the nine arguments —
  the same function the reference's result is.
-/
import proofs.«105237_j74629351735532_1_alg».proof.Proof.Gen.KernelIdeal.Frame
import proofs.«105237_j74629351735532_1_alg».proof.Proof.Region0
import proofs.«105237_j74629351735532_1_alg».proof.Proof.Region1
import proofs.«105237_j74629351735532_1_alg».proof.Proof.Region2
import proofs.«105237_j74629351735532_1_alg».proof.Proof.Stages
import Idealize.ShloMosaic.Lib.StableHlo.Run
import Idealize.ShloMosaic.Lib.ValueLayout

set_option maxRecDepth 16384

noncomputable section

namespace Cert.KernelIdeal.Chain

open Cert.KernelIdeal Cert.KernelIdeal.Gen Cert.RowForms
open Cert.ReferenceIdeal.Read (val_main_v3 val_main_v6 val_main_v8 val_main_v34)
open Cert.ReferenceIdeal.Stages (agg net deg dinv enorm nrm_eq)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The first stretch: the edge list with self loops, the edge weights, the weighted in-degree -/

set_option maxHeartbeats 4000000 in
theorem r0_v3 (Wv : Valuation τ sig (Elt Ideal)) : StableHlo.after hostOps0 Wv (Proc.devRef .tc main_v3) = val_main_v3 (F := Ideal) (Wv (Proc.devRef .tc main_arg1)) := by
  dsimp only [hostOps0]
  after_results_simp
  rfl
set_option maxHeartbeats 4000000 in
theorem r0_v6 (Wv : Valuation τ sig (Elt Ideal)) : StableHlo.after hostOps0 Wv (Proc.devRef .tc main_v6) = val_main_v6 (F := Ideal) (Wv (Proc.devRef .tc main_arg1)) := by
  dsimp only [hostOps0]
  after_results_simp
  rfl
set_option maxHeartbeats 4000000 in
theorem r0_v8 (Wv : Valuation τ sig (Elt Ideal)) : StableHlo.after hostOps0 Wv (Proc.devRef .tc main_v8) = val_main_v8 (F := Ideal) (Wv (Proc.devRef .tc main_arg2)) := by
  dsimp only [hostOps0]
  after_results_simp
  rfl
set_option maxHeartbeats 4000000 in
theorem r0_v11 (Wv : Valuation τ sig (Elt Ideal)) : StableHlo.after hostOps0 Wv (Proc.devRef .tc main_v11)
    = deg (StableHlo.after hostOps0 Wv (Proc.devRef .tc main_v6)) (StableHlo.after hostOps0 Wv (Proc.devRef .tc main_v8)) := by
  dsimp only [hostOps0]
  after_results_simp
  rfl
set_option maxHeartbeats 4000000 in
theorem r0_v13 (Wv : Valuation τ sig (Elt Ideal)) : StableHlo.after hostOps0 Wv (Proc.devRef .tc main_v13)
    = cmpf (F := Ideal) (φ := .f32) .ogt (StableHlo.after hostOps0 Wv (Proc.devRef .tc main_v11)) (broadcastInDim S50000 ![] bcast_S_S50000 (constant (F := Ideal) S_ .f32 0x00000000#32)) := by
  dsimp only [hostOps0]
  after_results_simp
set_option maxHeartbeats 4000000 in
theorem r0_v15 (Wv : Valuation τ sig (Elt Ideal)) : StableHlo.after hostOps0 Wv (Proc.devRef .tc main_v15)
    = cmpf (F := Ideal) (φ := .f32) .ogt (StableHlo.after hostOps0 Wv (Proc.devRef .tc main_v11)) (broadcastInDim S50000 ![] bcast_S_S50000 (constant (F := Ideal) S_ .f32 0x00000000#32)) := by
  dsimp only [hostOps0]
  after_results_simp
set_option maxHeartbeats 4000000 in
theorem r0_cst3 (Wv : Valuation τ sig (Elt Ideal)) : StableHlo.after hostOps0 Wv (Proc.devRef .tc main_cst_3) = constant (F := Ideal) S_ .f32 0x3F800000#32 := by
  dsimp only [hostOps0]
  after_results_simp

/-! ## The inverse square root of the degree: a selection, the root, a selection -/

set_option maxHeartbeats 4000000 in
theorem r1_v16 (Wv : Valuation τ sig (Elt Ideal)) : StableHlo.after hostOps0_1 Wv (Proc.devRef .tc main_v16)
    = select (Wv (Proc.devRef .tc main_v15)) (Wv (Proc.devRef .tc main_v11)) (broadcastInDim S50000 ![] bcast_S_S50000 (id (Wv (Proc.devRef .tc main_cst_3)))) := by
  dsimp only [hostOps0_1]
  after_results_simp
  simp only [StableHlo.TRef.toBuf, StableHlo.TRef.ofBuf, cast_cast, cast_eq]
set_option maxHeartbeats 4000000 in
theorem p1_v13 (Wv : Valuation τ sig (Elt Ideal)) : StableHlo.after hostOps0_1 Wv (Proc.devRef .tc main_v13) = Wv (Proc.devRef .tc main_v13) := by
  dsimp only [hostOps0_1]
  after_results_simp
set_option maxHeartbeats 4000000 in
theorem r2_v17 (Wv : Valuation τ sig (Elt Ideal)) : StableHlo.after hostOps0_2 Wv (Proc.devRef .tc main_v17) = Host.rsqrt (F := Ideal) (φ := .f32) (Wv (Proc.devRef .tc main_v16)) := by
  dsimp only [hostOps0_2]
  after_results_simp
set_option maxHeartbeats 4000000 in
theorem r2_cst4 (Wv : Valuation τ sig (Elt Ideal)) : StableHlo.after hostOps0_2 Wv (Proc.devRef .tc main_cst_4) = constant (F := Ideal) S_ .f32 0x00000000#32 := by
  dsimp only [hostOps0_2]
  after_results_simp
set_option maxHeartbeats 4000000 in
theorem p2_v13 (Wv : Valuation τ sig (Elt Ideal)) : StableHlo.after hostOps0_2 Wv (Proc.devRef .tc main_v13) = Wv (Proc.devRef .tc main_v13) := by
  dsimp only [hostOps0_2]
  after_results_simp
set_option maxHeartbeats 4000000 in
theorem r3_v18 (Wv : Valuation τ sig (Elt Ideal)) : StableHlo.after hostOps0_3 Wv (Proc.devRef .tc main_v18)
    = select (Wv (Proc.devRef .tc main_v13)) (Wv (Proc.devRef .tc main_v17)) (broadcastInDim S50000 ![] bcast_S_S50000 (id (Wv (Proc.devRef .tc main_cst_4)))) := by
  dsimp only [hostOps0_3]
  after_results_simp
  simp only [StableHlo.TRef.toBuf, StableHlo.TRef.ofBuf, cast_cast, cast_eq]

/-- The inverse root stage in this program's spelling, as a function of the degree. -/
def kdinv (g : FVec Ideal S50000 .f32) : FVec Ideal S50000 .f32 :=
  select (cmpf (F := Ideal) (φ := .f32) .ogt g (broadcastInDim S50000 ![] bcast_S_S50000 (constant (F := Ideal) S_ .f32 0x00000000#32)))
    (Host.rsqrt (F := Ideal) (φ := .f32)
      (select (cmpf (F := Ideal) (φ := .f32) .ogt g (broadcastInDim S50000 ![] bcast_S_S50000 (constant (F := Ideal) S_ .f32 0x00000000#32))) g
        (broadcastInDim S50000 ![] bcast_S_S50000 (id (constant (F := Ideal) S_ .f32 0x3F800000#32)))))
    (broadcastInDim S50000 ![] bcast_S_S50000 (id (constant (F := Ideal) S_ .f32 0x00000000#32)))

/-- It is the reference's. -/
theorem kdinv_eq (g : FVec Ideal S50000 .f32) : kdinv g = dinv g := rfl

/-- After the four stretches the inverse root degree is `dinv` of the weighted in-degree of the arguments' edge list. -/
theorem dinv_from (Wv : Valuation τ sig (Elt Ideal)) : StableHlo.after hostOps0_3 (StableHlo.after hostOps0_2 (StableHlo.after hostOps0_1 (StableHlo.after hostOps0 Wv))) (Proc.devRef .tc main_v18)
    = dinv (deg (val_main_v6 (F := Ideal) (Wv (Proc.devRef .tc main_arg1))) (val_main_v8 (F := Ideal) (Wv (Proc.devRef .tc main_arg2)))) := by
  rw [r3_v18, p2_v13, p1_v13, r2_v17, r2_cst4, r1_v16, r0_v13, r0_v15, r0_cst3, r0_v11, r0_v6, r0_v8, ← kdinv_eq]
  rfl

/-! ## The edge norm -/

set_option maxHeartbeats 4000000 in
theorem r4_v34 (Wv : Valuation τ sig (Elt Ideal)) : StableHlo.after hostOps0_4 Wv (Proc.devRef .tc main_v34)
    = enorm (Wv (Proc.devRef .tc main_v18)) (Wv (Proc.devRef .tc main_v3)) (Wv (Proc.devRef .tc main_v6)) (Wv (Proc.devRef .tc main_v8)) := by
  dsimp only [hostOps0_4]
  after_results_simp
  generalize Wv (Proc.devRef .tc main_v18) = q
  generalize Wv (Proc.devRef .tc main_v3) = s
  generalize Wv (Proc.devRef .tc main_v6) = d
  generalize Wv (Proc.devRef .tc main_v8) = w
  rfl
set_option maxHeartbeats 4000000 in
theorem q4_v3 (Wv : Valuation τ sig (Elt Ideal)) : StableHlo.after hostOps0_3 (StableHlo.after hostOps0_2 (StableHlo.after hostOps0_1 (StableHlo.after hostOps0 Wv))) (Proc.devRef .tc main_v3) = val_main_v3 (F := Ideal) (Wv (Proc.devRef .tc main_arg1)) := by
  dsimp only [hostOps0, hostOps0_1, hostOps0_2, hostOps0_3]
  after_results_simp
  rfl
set_option maxHeartbeats 4000000 in
theorem q4_v6 (Wv : Valuation τ sig (Elt Ideal)) : StableHlo.after hostOps0_3 (StableHlo.after hostOps0_2 (StableHlo.after hostOps0_1 (StableHlo.after hostOps0 Wv))) (Proc.devRef .tc main_v6) = val_main_v6 (F := Ideal) (Wv (Proc.devRef .tc main_arg1)) := by
  dsimp only [hostOps0, hostOps0_1, hostOps0_2, hostOps0_3]
  after_results_simp
  rfl
set_option maxHeartbeats 4000000 in
theorem q4_v8 (Wv : Valuation τ sig (Elt Ideal)) : StableHlo.after hostOps0_3 (StableHlo.after hostOps0_2 (StableHlo.after hostOps0_1 (StableHlo.after hostOps0 Wv))) (Proc.devRef .tc main_v8) = val_main_v8 (F := Ideal) (Wv (Proc.devRef .tc main_arg2)) := by
  dsimp only [hostOps0, hostOps0_1, hostOps0_2, hostOps0_3]
  after_results_simp
  rfl

/-- After the five stretches the edge norm is the reference's function of the arguments' edge list and weights. -/
theorem nrm_from (Wv : Valuation τ sig (Elt Ideal)) : StableHlo.after hostOps0_4 (StableHlo.after hostOps0_3 (StableHlo.after hostOps0_2 (StableHlo.after hostOps0_1 (StableHlo.after hostOps0 Wv)))) (Proc.devRef .tc main_v34)
    = val_main_v34 (F := Ideal) (Wv (Proc.devRef .tc main_arg1)) (Wv (Proc.devRef .tc main_arg2)) := by
  rw [r4_v34, dinv_from, q4_v3, q4_v6, q4_v8, nrm_eq]
set_option maxHeartbeats 4000000 in
theorem q5_v3 (Wv : Valuation τ sig (Elt Ideal)) : StableHlo.after hostOps0_4 (StableHlo.after hostOps0_3 (StableHlo.after hostOps0_2 (StableHlo.after hostOps0_1 (StableHlo.after hostOps0 Wv)))) (Proc.devRef .tc main_v3) = val_main_v3 (F := Ideal) (Wv (Proc.devRef .tc main_arg1)) := by
  dsimp only [hostOps0, hostOps0_1, hostOps0_2, hostOps0_3, hostOps0_4]
  after_results_simp
  rfl
set_option maxHeartbeats 4000000 in
theorem q5_v6 (Wv : Valuation τ sig (Elt Ideal)) : StableHlo.after hostOps0_4 (StableHlo.after hostOps0_3 (StableHlo.after hostOps0_2 (StableHlo.after hostOps0_1 (StableHlo.after hostOps0 Wv)))) (Proc.devRef .tc main_v6) = val_main_v6 (F := Ideal) (Wv (Proc.devRef .tc main_arg1)) := by
  dsimp only [hostOps0, hostOps0_1, hostOps0_2, hostOps0_3, hostOps0_4]
  after_results_simp
  rfl
set_option maxHeartbeats 4000000 in
theorem q5_arg0 (Wv : Valuation τ sig (Elt Ideal)) : StableHlo.after hostOps0_4 (StableHlo.after hostOps0_3 (StableHlo.after hostOps0_2 (StableHlo.after hostOps0_1 (StableHlo.after hostOps0 Wv)))) (Proc.devRef .tc main_arg0) = Wv (Proc.devRef .tc main_arg0) := by
  dsimp only [hostOps0, hostOps0_1, hostOps0_2, hostOps0_3, hostOps0_4]
  after_results_simp
set_option maxHeartbeats 4000000 in
theorem q5_arg3 (Wv : Valuation τ sig (Elt Ideal)) : StableHlo.after hostOps0_4 (StableHlo.after hostOps0_3 (StableHlo.after hostOps0_2 (StableHlo.after hostOps0_1 (StableHlo.after hostOps0 Wv)))) (Proc.devRef .tc main_arg3) = Wv (Proc.devRef .tc main_arg3) := by
  dsimp only [hostOps0, hostOps0_1, hostOps0_2, hostOps0_3, hostOps0_4]
  after_results_simp
set_option maxHeartbeats 4000000 in
theorem q5_arg4 (Wv : Valuation τ sig (Elt Ideal)) : StableHlo.after hostOps0_4 (StableHlo.after hostOps0_3 (StableHlo.after hostOps0_2 (StableHlo.after hostOps0_1 (StableHlo.after hostOps0 Wv)))) (Proc.devRef .tc main_arg4) = Wv (Proc.devRef .tc main_arg4) := by
  dsimp only [hostOps0, hostOps0_1, hostOps0_2, hostOps0_3, hostOps0_4]
  after_results_simp
set_option maxHeartbeats 4000000 in
theorem q5_arg5 (Wv : Valuation τ sig (Elt Ideal)) : StableHlo.after hostOps0_4 (StableHlo.after hostOps0_3 (StableHlo.after hostOps0_2 (StableHlo.after hostOps0_1 (StableHlo.after hostOps0 Wv)))) (Proc.devRef .tc main_arg5) = Wv (Proc.devRef .tc main_arg5) := by
  dsimp only [hostOps0, hostOps0_1, hostOps0_2, hostOps0_3, hostOps0_4]
  after_results_simp
set_option maxHeartbeats 4000000 in
theorem q5_arg6 (Wv : Valuation τ sig (Elt Ideal)) : StableHlo.after hostOps0_4 (StableHlo.after hostOps0_3 (StableHlo.after hostOps0_2 (StableHlo.after hostOps0_1 (StableHlo.after hostOps0 Wv)))) (Proc.devRef .tc main_arg6) = Wv (Proc.devRef .tc main_arg6) := by
  dsimp only [hostOps0, hostOps0_1, hostOps0_2, hostOps0_3, hostOps0_4]
  after_results_simp
set_option maxHeartbeats 4000000 in
theorem q5_arg7 (Wv : Valuation τ sig (Elt Ideal)) : StableHlo.after hostOps0_4 (StableHlo.after hostOps0_3 (StableHlo.after hostOps0_2 (StableHlo.after hostOps0_1 (StableHlo.after hostOps0 Wv)))) (Proc.devRef .tc main_arg7) = Wv (Proc.devRef .tc main_arg7) := by
  dsimp only [hostOps0, hostOps0_1, hostOps0_2, hostOps0_3, hostOps0_4]
  after_results_simp
set_option maxHeartbeats 4000000 in
theorem q5_arg8 (Wv : Valuation τ sig (Elt Ideal)) : StableHlo.after hostOps0_4 (StableHlo.after hostOps0_3 (StableHlo.after hostOps0_2 (StableHlo.after hostOps0_1 (StableHlo.after hostOps0 Wv)))) (Proc.devRef .tc main_arg8) = Wv (Proc.devRef .tc main_arg8) := by
  dsimp only [hostOps0, hostOps0_1, hostOps0_2, hostOps0_3, hostOps0_4]
  after_results_simp

/-! ## The later host stretches: a neighbourhood sum and the bias rows -/

set_option maxHeartbeats 4000000 in
theorem r5_v48 (Wv : Valuation τ sig (Elt Ideal)) : StableHlo.after hostOps1 Wv (Proc.devRef .tc main_v48)
    = agg (Wv (Proc.devRef .tc main_v35)) (Wv (Proc.devRef .tc main_v3)) (Wv (Proc.devRef .tc main_v6)) (Wv (Proc.devRef .tc main_v34)) := by
  dsimp only [hostOps1]
  after_results_simp
  generalize Wv (Proc.devRef .tc main_v35) = h
  generalize Wv (Proc.devRef .tc main_v3) = s
  generalize Wv (Proc.devRef .tc main_v6) = d
  generalize Wv (Proc.devRef .tc main_v34) = n
  rfl
set_option maxHeartbeats 4000000 in
theorem r5_v49 (Wv : Valuation τ sig (Elt Ideal)) : StableHlo.after hostOps1 Wv (Proc.devRef .tc main_v49)
    = shapeCast S1x64 (Wv (Proc.devRef .tc main_arg4)) shapeCasts_S64_S1x64 := by
  dsimp only [hostOps1]
  after_results_simp
  rfl
set_option maxHeartbeats 4000000 in
theorem p5_v3 (Wv : Valuation τ sig (Elt Ideal)) : StableHlo.after hostOps1 Wv (Proc.devRef .tc main_v3) = Wv (Proc.devRef .tc main_v3) := by
  dsimp only [hostOps1]
  after_results_simp
set_option maxHeartbeats 4000000 in
theorem p5_v6 (Wv : Valuation τ sig (Elt Ideal)) : StableHlo.after hostOps1 Wv (Proc.devRef .tc main_v6) = Wv (Proc.devRef .tc main_v6) := by
  dsimp only [hostOps1]
  after_results_simp
set_option maxHeartbeats 4000000 in
theorem p5_v34 (Wv : Valuation τ sig (Elt Ideal)) : StableHlo.after hostOps1 Wv (Proc.devRef .tc main_v34) = Wv (Proc.devRef .tc main_v34) := by
  dsimp only [hostOps1]
  after_results_simp
set_option maxHeartbeats 4000000 in
theorem p5_arg5 (Wv : Valuation τ sig (Elt Ideal)) : StableHlo.after hostOps1 Wv (Proc.devRef .tc main_arg5) = Wv (Proc.devRef .tc main_arg5) := by
  dsimp only [hostOps1]
  after_results_simp
set_option maxHeartbeats 4000000 in
theorem p5_arg6 (Wv : Valuation τ sig (Elt Ideal)) : StableHlo.after hostOps1 Wv (Proc.devRef .tc main_arg6) = Wv (Proc.devRef .tc main_arg6) := by
  dsimp only [hostOps1]
  after_results_simp
set_option maxHeartbeats 4000000 in
theorem p5_arg7 (Wv : Valuation τ sig (Elt Ideal)) : StableHlo.after hostOps1 Wv (Proc.devRef .tc main_arg7) = Wv (Proc.devRef .tc main_arg7) := by
  dsimp only [hostOps1]
  after_results_simp
set_option maxHeartbeats 4000000 in
theorem p5_arg8 (Wv : Valuation τ sig (Elt Ideal)) : StableHlo.after hostOps1 Wv (Proc.devRef .tc main_arg8) = Wv (Proc.devRef .tc main_arg8) := by
  dsimp only [hostOps1]
  after_results_simp
set_option maxHeartbeats 4000000 in
theorem r6_v63 (Wv : Valuation τ sig (Elt Ideal)) : StableHlo.after hostOps2 Wv (Proc.devRef .tc main_v63)
    = agg (Wv (Proc.devRef .tc main_v50)) (Wv (Proc.devRef .tc main_v3)) (Wv (Proc.devRef .tc main_v6)) (Wv (Proc.devRef .tc main_v34)) := by
  dsimp only [hostOps2]
  after_results_simp
  generalize Wv (Proc.devRef .tc main_v50) = h
  generalize Wv (Proc.devRef .tc main_v3) = s
  generalize Wv (Proc.devRef .tc main_v6) = d
  generalize Wv (Proc.devRef .tc main_v34) = n
  rfl
set_option maxHeartbeats 4000000 in
theorem r6_v64 (Wv : Valuation τ sig (Elt Ideal)) : StableHlo.after hostOps2 Wv (Proc.devRef .tc main_v64)
    = shapeCast S1x64 (Wv (Proc.devRef .tc main_arg6)) shapeCasts_S64_S1x64 := by
  dsimp only [hostOps2]
  after_results_simp
  rfl
set_option maxHeartbeats 4000000 in
theorem r6_v65 (Wv : Valuation τ sig (Elt Ideal)) : StableHlo.after hostOps2 Wv (Proc.devRef .tc main_v65)
    = shapeCast S1x8 (Wv (Proc.devRef .tc main_arg8)) shapeCasts_S8_S1x8 := by
  dsimp only [hostOps2]
  after_results_simp
  rfl
set_option maxHeartbeats 4000000 in
theorem p6_arg7 (Wv : Valuation τ sig (Elt Ideal)) : StableHlo.after hostOps2 Wv (Proc.devRef .tc main_arg7) = Wv (Proc.devRef .tc main_arg7) := by
  dsimp only [hostOps2]
  after_results_simp

/-! ## The buffers at each boundary of the run, as functions of the arguments -/

/-- The edge list with self loops and the edge norm, of the launch memory's arguments. -/
abbrev srcs := val_main_v3 (F := Ideal) (m ((c : Thread nD τ).loc main_arg1))
abbrev dsts := val_main_v6 (F := Ideal) (m ((c : Thread nD τ).loc main_arg1))
abbrev nrms := val_main_v34 (F := Ideal) (m ((c : Thread nD τ).loc main_arg1)) (m ((c : Thread nD τ).loc main_arg2))
/-- The float arguments as arrays of extended reals. -/
abbrev X0 : S50000x64.Idx → EReal := (m ((c : Thread nD τ).loc main_arg0))
abbrev X3 : S64x64.Idx → EReal := (m ((c : Thread nD τ).loc main_arg3))
abbrev X4 : S64.Idx → EReal := (m ((c : Thread nD τ).loc main_arg4))
abbrev X5 : S64x64.Idx → EReal := (m ((c : Thread nD τ).loc main_arg5))
abbrev X6 : S64.Idx → EReal := (m ((c : Thread nD τ).loc main_arg6))
abbrev X7 : S64x8.Idx → EReal := (m ((c : Thread nD τ).loc main_arg7))
abbrev X8 : S8.Idx → EReal := (m ((c : Thread nD τ).loc main_arg8))

/-- The first neighbourhood sum, the hidden layer, the second neighbourhood sum. -/
def feat1 : S50000x64.Idx → EReal := agg (project (X0 m c) (X3 m c)) (srcs m c) (dsts m c) (nrms m c)
def hidden : S50000x64.Idx → EReal := layer (feat1 m c) (fun k => X4 m c (ix1 k)) (X5 m c)
def feat2 : S50000x64.Idx → EReal := agg (hidden m c) (srcs m c) (dsts m c) (nrms m c)

theorem W5_v3 : W5 m ρ c (Proc.devRef .tc main_v3) = srcs m c := q5_v3 (W0 m ρ c)
theorem W5_v6 : W5 m ρ c (Proc.devRef .tc main_v6) = dsts m c := q5_v6 (W0 m ρ c)
theorem W5_v34 : W5 m ρ c (Proc.devRef .tc main_v34) = nrms m c := nrm_from (W0 m ρ c)
theorem W5_arg0 : W5 m ρ c (Proc.devRef .tc main_arg0) = (m ((c : Thread nD τ).loc main_arg0)) := q5_arg0 (W0 m ρ c)
theorem W5_arg3 : W5 m ρ c (Proc.devRef .tc main_arg3) = (m ((c : Thread nD τ).loc main_arg3)) := q5_arg3 (W0 m ρ c)
theorem W5_arg4 : W5 m ρ c (Proc.devRef .tc main_arg4) = (m ((c : Thread nD τ).loc main_arg4)) := q5_arg4 (W0 m ρ c)
theorem W5_arg5 : W5 m ρ c (Proc.devRef .tc main_arg5) = (m ((c : Thread nD τ).loc main_arg5)) := q5_arg5 (W0 m ρ c)
theorem W5_arg6 : W5 m ρ c (Proc.devRef .tc main_arg6) = (m ((c : Thread nD τ).loc main_arg6)) := q5_arg6 (W0 m ρ c)
theorem W5_arg7 : W5 m ρ c (Proc.devRef .tc main_arg7) = (m ((c : Thread nD τ).loc main_arg7)) := q5_arg7 (W0 m ρ c)
theorem W5_arg8 : W5 m ρ c (Proc.devRef .tc main_arg8) = (m ((c : Thread nD τ).loc main_arg8)) := q5_arg8 (W0 m ρ c)

/-- After the first region: the projection of the features. -/
theorem W6_v35 : W6 m ρ c (Proc.devRef .tc main_v35) = project (X0 m c) (X3 m c) := by
  refine (W6_arr m ρ c 2).trans ((Region0.value (V5 m ρ) c).trans ?_)
  show project (W5 m ρ c (Proc.devRef .tc main_arg0)) (W5 m ρ c (Proc.devRef .tc main_arg3)) = _
  rw [W5_arg0, W5_arg3]
theorem W6_v3 : W6 m ρ c (Proc.devRef .tc main_v3) = srcs m c := (W6_of_ne m ρ c main_v3 (by decide)).trans (W5_v3 m ρ c)
theorem W6_v6 : W6 m ρ c (Proc.devRef .tc main_v6) = dsts m c := (W6_of_ne m ρ c main_v6 (by decide)).trans (W5_v6 m ρ c)
theorem W6_v34 : W6 m ρ c (Proc.devRef .tc main_v34) = nrms m c := (W6_of_ne m ρ c main_v34 (by decide)).trans (W5_v34 m ρ c)
theorem W6_arg4 : W6 m ρ c (Proc.devRef .tc main_arg4) = (m ((c : Thread nD τ).loc main_arg4)) := (W6_of_ne m ρ c main_arg4 (by decide)).trans (W5_arg4 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)

/-- After the second host stretch: the first neighbourhood sum and the first bias row. -/
theorem W7_v48 : W7 m ρ c (Proc.devRef .tc main_v48) = feat1 m c := by
  show StableHlo.after hostOps1 (W6 m ρ c) (Proc.devRef .tc main_v48) = _
  rw [r5_v48, W6_v35, W6_v3, W6_v6, W6_v34]
  rfl
theorem W7_v49 : W7 m ρ c (Proc.devRef .tc main_v49) = shapeCast S1x64 (X4 m c) shapeCasts_S64_S1x64 := by
  show StableHlo.after hostOps1 (W6 m ρ c) (Proc.devRef .tc main_v49) = _
  rw [r5_v49, W6_arg4]
theorem W7_v3 : W7 m ρ c (Proc.devRef .tc main_v3) = srcs m c := (p5_v3 (W6 m ρ c)).trans (W6_v3 m ρ c)
theorem W7_v6 : W7 m ρ c (Proc.devRef .tc main_v6) = dsts m c := (p5_v6 (W6 m ρ c)).trans (W6_v6 m ρ c)
theorem W7_v34 : W7 m ρ c (Proc.devRef .tc main_v34) = nrms m c := (p5_v34 (W6 m ρ c)).trans (W6_v34 m ρ c)
theorem W7_arg5 : W7 m ρ c (Proc.devRef .tc main_arg5) = (m ((c : Thread nD τ).loc main_arg5)) := (p5_arg5 (W6 m ρ c)).trans (W6_arg5 m ρ c)
theorem W7_arg6 : W7 m ρ c (Proc.devRef .tc main_arg6) = (m ((c : Thread nD τ).loc main_arg6)) := (p5_arg6 (W6 m ρ c)).trans (W6_arg6 m ρ c)
theorem W7_arg7 : W7 m ρ c (Proc.devRef .tc main_arg7) = (m ((c : Thread nD τ).loc main_arg7)) := (p5_arg7 (W6 m ρ c)).trans (W6_arg7 m ρ c)
theorem W7_arg8 : W7 m ρ c (Proc.devRef .tc main_arg8) = (m ((c : Thread nD τ).loc main_arg8)) := (p5_arg8 (W6 m ρ c)).trans (W6_arg8 m ρ c)

/-- After the second region: the hidden layer. -/
theorem W8_v50 : W8 m ρ c (Proc.devRef .tc main_v50) = hidden m c := by
  refine (W8_arr m ρ c 3).trans ((Region1.value (V7 m ρ) c).trans ?_)
  show layer (W7 m ρ c (Proc.devRef .tc main_v48)) (fun k => (W7 m ρ c (Proc.devRef .tc main_v49) : S1x64.Idx → EReal) (ix2 (0 : Fin 1) k))
    (W7 m ρ c (Proc.devRef .tc main_arg5)) = _
  rw [W7_v48, W7_v49, W7_arg5]
  exact congrArg (fun b => layer (feat1 m c) b (X5 m c)) (funext fun k => shapeCast_a_1a_apply (X4 m c) shapeCasts_S64_S1x64 0 k)
theorem W8_v3 : W8 m ρ c (Proc.devRef .tc main_v3) = srcs m c := (W8_of_ne m ρ c main_v3 (by decide)).trans (W7_v3 m ρ c)
theorem W8_v6 : W8 m ρ c (Proc.devRef .tc main_v6) = dsts m c := (W8_of_ne m ρ c main_v6 (by decide)).trans (W7_v6 m ρ c)
theorem W8_v34 : W8 m ρ c (Proc.devRef .tc main_v34) = nrms m c := (W8_of_ne m ρ c main_v34 (by decide)).trans (W7_v34 m ρ c)
theorem W8_arg6 : W8 m ρ c (Proc.devRef .tc main_arg6) = (m ((c : Thread nD τ).loc main_arg6)) := (W8_of_ne m ρ c main_arg6 (by decide)).trans (W7_arg6 m ρ c)
theorem W8_arg7 : W8 m ρ c (Proc.devRef .tc main_arg7) = (m ((c : Thread nD τ).loc main_arg7)) := (W8_of_ne m ρ c main_arg7 (by decide)).trans (W7_arg7 m ρ c)
theorem W8_arg8 : W8 m ρ c (Proc.devRef .tc main_arg8) = (m ((c : Thread nD τ).loc main_arg8)) := (W8_of_ne m ρ c main_arg8 (by decide)).trans (W7_arg8 m ρ c)

/-- After the third host stretch: the second neighbourhood sum and the two last bias rows. -/
theorem W9_v63 : W9 m ρ c (Proc.devRef .tc main_v63) = feat2 m c := by
  show StableHlo.after hostOps2 (W8 m ρ c) (Proc.devRef .tc main_v63) = _
  rw [r6_v63, W8_v50, W8_v3, W8_v6, W8_v34]
  rfl
theorem W9_v64 : W9 m ρ c (Proc.devRef .tc main_v64) = shapeCast S1x64 (X6 m c) shapeCasts_S64_S1x64 := by
  show StableHlo.after hostOps2 (W8 m ρ c) (Proc.devRef .tc main_v64) = _
  rw [r6_v64, W8_arg6]
theorem W9_v65 : W9 m ρ c (Proc.devRef .tc main_v65) = shapeCast S1x8 (X8 m c) shapeCasts_S8_S1x8 := by
  show StableHlo.after hostOps2 (W8 m ρ c) (Proc.devRef .tc main_v65) = _
  rw [r6_v65, W8_arg8]
theorem W9_arg7 : W9 m ρ c (Proc.devRef .tc main_arg7) = (m ((c : Thread nD τ).loc main_arg7)) := (p6_arg7 (W8 m ρ c)).trans (W8_arg7 m ρ c)

/-- After the third region, the end of the run: the result buffer holds the network function of the nine arguments. -/
theorem result_eq : W10 m ρ c (Proc.devRef .tc main_v66)
    = net (X0 m c) (m ((c : Thread nD τ).loc main_arg1)) (m ((c : Thread nD τ).loc main_arg2)) (X3 m c) (X4 m c) (X5 m c) (X6 m c) (X7 m c) (X8 m c) := by
  refine (W10_arr m ρ c 4).trans ((Region2.value (V9 m ρ) c).trans ?_)
  show classify (W9 m ρ c (Proc.devRef .tc main_v63)) (fun k => (W9 m ρ c (Proc.devRef .tc main_v64) : S1x64.Idx → EReal) (ix2 (0 : Fin 1) k))
    (W9 m ρ c (Proc.devRef .tc main_arg7)) (fun k => (W9 m ρ c (Proc.devRef .tc main_v65) : S1x8.Idx → EReal) (ix2 (0 : Fin 1) k)) = _
  rw [W9_v63, W9_v64, W9_arg7, W9_v65]
  exact congrArg₂ (fun b bm => classify (feat2 m c) b (X7 m c) bm)
    (funext fun k => shapeCast_a_1a_apply (X6 m c) shapeCasts_S64_S1x64 0 k)
    (funext fun k => shapeCast_a_1a_apply (X8 m c) shapeCasts_S8_S1x8 0 k)

end Cert.KernelIdeal.Chain

end
-- ==== Proof.lean ====
/-
  A two-layer graph convolution with a softmax head, as a kernel program and as its jnp reference: the claims.

  Both programs compute, from node features `x`, an edge list with weights and three weight matrices with biases,
  `softmax(relu(Â·relu(Â·(x·W1) + b1)·W2 + b2)·Wm + bm)`, where `Â·h` is the neighbourhood sum of `h` over the edge
  list with self loops, each edge scaled by the symmetric degree norm. The kernel program computes the three dense
  stages in three row-tiled kernels (the bias and rectifier of each layer fused into the next matrix product) and
  leaves the edge norm and the neighbourhood sums to the same host operations the reference uses.

  On the extended reals the two results are one function of the arguments, `net`: a row-tiled matrix product is the
  whole product row by row, the roundings to bf16 are the identity, the fused bias and rectifier are the reference's
  own, and the softmax along a row is the same quotient of shifted exponentials; no law of arithmetic beyond the
  definitions is used, so the precondition on the inputs is never opened. The kernel side is the run with its result
  named (`Named.run`) read back through the program's boundaries (`Chain.result_eq`); the reference side is its run with
  the result's stages read as the same row-wise arithmetic (`Stages.net_eq`). The three frames are the programs' runs
  with the results forgotten, and the idealization rewrote nothing, so `preserves` is trivial.
-/
import proofs.«105237_j74629351735532_1_alg».proof.Defs
import proofs.«105237_j74629351735532_1_alg».proof.Proof.Gen.Kernel
import proofs.«105237_j74629351735532_1_alg».proof.Proof.Gen.Kernel.Skeleton
import proofs.«105237_j74629351735532_1_alg».proof.Proof.Gen.Kernel.Launch
import proofs.«105237_j74629351735532_1_alg».proof.Proof.Gen.Kernel.Points
import proofs.«105237_j74629351735532_1_alg».proof.Proof.Gen.Kernel.Frame
import proofs.«105237_j74629351735532_1_alg».proof.Proof.Gen.KernelIdeal
import proofs.«105237_j74629351735532_1_alg».proof.Proof.Gen.KernelIdeal.Skeleton
import proofs.«105237_j74629351735532_1_alg».proof.Proof.Gen.KernelIdeal.Launch
import proofs.«105237_j74629351735532_1_alg».proof.Proof.Gen.KernelIdeal.Points
import proofs.«105237_j74629351735532_1_alg».proof.Proof.Gen.KernelIdeal.Frame
import proofs.«105237_j74629351735532_1_alg».proof.Proof.Gen.ReferenceIdeal
import proofs.«105237_j74629351735532_1_alg».proof.Proof.Gen.ReferenceIdeal.Run
import proofs.«105237_j74629351735532_1_alg».proof.Proof.Gen.ReferenceIdeal.Read
import proofs.«105237_j74629351735532_1_alg».proof.Proof.Gen.Pre_finite_inputs
import proofs.«105237_j74629351735532_1_alg».proof.Proof.KernelRun
import proofs.«105237_j74629351735532_1_alg».proof.Proof.Chain
import proofs.«105237_j74629351735532_1_alg».proof.Proof.Stages
import Idealize.ShloMosaic.Adequacy
import Idealize.ShloMosaic.Init

noncomputable section

namespace Cert.Proof

open Idealize.ShloMosaic Idealize.ShloMosaic.TcCoe Idealize.SL.Sem

/-- The word-level kernel program runs, and its arguments end as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs, and its arguments end as launched: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both idealized programs end with the result `net` of those arguments. -/
theorem algebraic : Cert.algebraic_KernelIdeal_ReferenceIdeal := by
  intro m ρ m' ρ' _ hagree
  refine ⟨fun c => Cert.ReferenceIdeal.Stages.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Chain.result_eq m ρ c), (h c).2⟩) (Cert.KernelIdeal.Named.run m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v85_eq, Cert.ReferenceIdeal.Stages.net_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
